-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel

variable [Facts]

def fn {F : FTy → Type} [FloatOps F] (main_arg0 : FVec F S4x2048x512 .f32) (main_arg1 : FVec F S4x2048x512 .f32) (main_arg2 : FVec F S4x2048x512 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S4x2048x512 .f32 := Host.absf main_arg2
  let main_cst_2 : FVec F S_ .f32 := constant S_ .f32 0x7F800000#32
  let main_v10 : FVec F S4x2048x512 .f32 := broadcastInDim S4x2048x512 ![] bcast_S_S4x2048x512 main_cst_2
  let main_v11 : IVec S4x2048x512 1 := cmpf .olt main_v9 main_v10
  let main_c_3 : IVec S_ 1 := constantI S_ 1 1#1
  let main_v12 : IVec S_ 1 := (fun x v => Host.reduce IntOp.andi x v reducesTo_S4x2048x512_S_d0_1_2 h_S_) main_v11 main_c_3
  let main_v13 : IVec S_ 1 := andi main_v8 main_v12
  main_v13
-- ==== Kernel.lean ====
abbrev S4x2048x512 : Shape := ⟨3, ![4, 2048, 512]⟩
abbrev S1x512x512 : Shape := ⟨3, ![1, 512, 512]⟩
abbrev S8x512x1 : Shape := ⟨3, ![8, 512, 1]⟩
abbrev S8x512x64 : Shape := ⟨3, ![8, 512, 64]⟩
abbrev S512x512 : Shape := ⟨2, ![512, 512]⟩
abbrev S512x8x64 : Shape := ⟨3, ![512, 8, 64]⟩
abbrev S8x512x512 : Shape := ⟨3, ![8, 512, 512]⟩
abbrev S8x512 : Shape := ⟨2, ![8, 512]⟩

abbrev nBuf : Space → Nat
  | .hbm => 4
  | .vmem => 12
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x2048x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S8x512x1, .f32⟩
  | .local _ .vmem, ⟨9, _⟩ => ⟨S8x512x1, .f32⟩
  | .local _ .vmem, ⟨10, _⟩ => ⟨S8x512x64, .f32⟩
  | .local _ .vmem, ⟨11, _⟩ => ⟨S8x512x64, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v46 : BitVec 1 := Scalar.cmpi .eq arg2 c3_i32
  let v47 : BitVec 32 := Scalar.extui v46
  let c0_i32_31 : BitVec 32 := 0#32
  let v48 : BitVec 1 := Scalar.cmpi .ne v47 c0_i32_31
  v48

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S8x512x1_S8x512x1_0_0_0 : ∀ a, (![0, 0, 0] : Fin 3 → Nat) a + S8x512x1.size a ≤ S8x512x1.size a
  h_S8x512x1 : 0 < S8x512x1.numel
  shapeCasts_S8x512x1_S8x512x1 : S8x512x1.ShapeCasts S8x512x1
  inb_S8x512x64_S8x512x64_0_0_0 : ∀ a, (![0, 0, 0] : Fin 3 → Nat) a + S8x512x64.size a ≤ S8x512x64.size a
  h_S8x512x64 : 0 < S8x512x64.numel
  shapeCasts_S8x512x64_S8x512x64 : S8x512x64.ShapeCasts S8x512x64
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  shapeCasts_S512x512_S512x8x64 : S512x512.ShapeCasts S512x8x64
  transposes_S512x8x64_p1_0_2_S8x512x64 : S512x8x64.Transposes [1, 0, 2] S8x512x64
  packedbf16_S8x512x64_S8x512x64_0_0_0 : (Rect.unit (s := S8x512x64) ![0, 0, 0] S8x512x64.size inb_S8x512x64_S8x512x64_0_0_0).PackedRows (EltTy.packing .bf16)
  reduces_S8x512x512_S8x512 : S8x512x512.Reduces [2] S8x512
  shapeCasts_S8x512_S8x512x1 : S8x512.ShapeCasts S8x512x1
  broadcasts_S8x512x1_S8x512x512 : S8x512x1.Broadcasts S8x512x512
  broadcasts_S8x512x1_S8x512x64 : S8x512x1.Broadcasts S8x512x64
  transposes_S8x512x64_p1_0_2_S512x8x64 : S8x512x64.Transposes [1, 0, 2] S512x8x64
  shapeCasts_S512x8x64_S512x512 : S512x8x64.ShapeCasts S512x512
  shapeCasts_S512x512_S1x512x512 : S512x512.ShapeCasts S1x512x512
  dot_S8x512x64_S8x512x64_S8x512x512_2_2_1_1_0_0_wf : DotDims.WF S8x512x64 S8x512x64 S8x512x512 [2] [2] [1] [1] [0] [0]
  dot_S8x512x512_S8x512x64_S8x512x64_2_1_1_2_0_0_wf : DotDims.WF S8x512x512 S8x512x64 S8x512x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S4x2048x512.size a
  hwx0_0 : ∀ i : grid0.Coords, EltTy.bits .f32 = 32 ∨ (Rect.block (s := S4x2048x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S4x2048x512.size a
  hwx0_1 : ∀ i : grid0.Coords, EltTy.bits .f32 = 32 ∨ (Rect.block (s := S4x2048x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S4x2048x512.size a
  hwx0_2 : ∀ i : grid0.Coords, EltTy.bits .f32 = 32 ∨ (Rect.block (s := S4x2048x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S4x2048x512.size a
  hwx0_3 : ∀ i : grid0.Coords, EltTy.bits .f32 = 32 ∨ (Rect.block (s := S4x2048x512) S1x512x512.size (cc0_transform_3 i) (hinb0_3 i)).WholeWords (EltTy.packing .f32)

variable [Facts₀]

def dot_S8x512x64_S8x512x64_S8x512x512_2_2_1_1_0_0 : DotDims S8x512x64 S8x512x64 S8x512x512 where
  lhsContracting := [2]
  rhsContracting := [2]
  lhsNonContracting := [1]
  rhsNonContracting := [1]
  lhsBatch := [0]
  rhsBatch := [0]
  wf := dot_S8x512x64_S8x512x64_S8x512x512_2_2_1_1_0_0_wf
def dot_S8x512x512_S8x512x64_S8x512x64_2_1_1_2_0_0 : DotDims S8x512x512 S8x512x64 S8x512x64 where
  lhsContracting := [2]
  rhsContracting := [1]
  lhsNonContracting := [1]
  rhsNonContracting := [2]
  lhsBatch := [0]
  rhsBatch := [0]
  wf := dot_S8x512x512_S8x512x64_S8x512x64_2_1_1_2_0_0_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x512 : Shape := ⟨3, ![4, 2048, 512]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x2048x8x64, .f32⟩
  | .hbm, ⟨4, _⟩ => ⟨S4x8x2048x64, .f32⟩
  | .hbm, ⟨5, _⟩ => ⟨S4x2048x8x64, .f32⟩
  | .hbm, ⟨6, _⟩ => ⟨S4x8x2048x64, .f32⟩
  | .hbm, ⟨7, _⟩ => ⟨S4x2048x8x64, .f32⟩
  | .hbm, ⟨8, _⟩ => ⟨S4x8x2048x64, .f32⟩
  | .hbm, ⟨9, _⟩ => ⟨S4x8x2048x2048, .f32⟩
  | .hbm, ⟨10, _⟩ => ⟨S_, .f32⟩
  | .hbm, ⟨11, _⟩ => ⟨S4x8x2048x2048, .f32⟩
  | .hbm, ⟨12, _⟩ => ⟨S4x8x2048x2048, .f32⟩
  | .hbm, ⟨13, _⟩ => ⟨S_, .f32⟩
  | .hbm, ⟨14, _⟩ => ⟨S4x8x2048, .f32⟩
  | .hbm, ⟨15, _⟩ => ⟨S_, .f32⟩
  | .hbm, ⟨16, _⟩ => ⟨S4x8x2048, .f32⟩
  | .hbm, ⟨17, _⟩ => ⟨S4x8x2048, .f32⟩
  | .hbm, ⟨18, _⟩ => ⟨S4x8x2048x1, .f32⟩
  | .hbm, ⟨19, _⟩ => ⟨S4x8x2048x2048, .f32⟩
  | .hbm, ⟨20, _⟩ => ⟨S4x8x2048x2048, .f32⟩
  | .hbm, ⟨21, _⟩ => ⟨S4x8x2048x2048, .f32⟩
  | .hbm, ⟨22, _⟩ => ⟨S_, .f32⟩
  | .hbm, ⟨23, _⟩ => ⟨S4x8x2048, .f32⟩
  | .hbm, ⟨24, _⟩ => ⟨S4x8x2048x1, .f32⟩
  | .hbm, ⟨25, _⟩ => ⟨S4x8x2048x2048, .f32⟩
  | .hbm, ⟨26, _⟩ => ⟨S4x8x2048x2048, .f32⟩
  | .hbm, ⟨27, _⟩ => ⟨S4x8x2048x64, .f32⟩
  | .hbm, ⟨28, _⟩ => ⟨S4x2048x8x64, .f32⟩
  | .hbm, ⟨29, _⟩ => ⟨S4x2048x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  shapeCasts_S4x2048x512_S4x2048x8x64 : S4x2048x512.ShapeCasts S4x2048x8x64
  transposes_S4x2048x8x64_S4x8x2048x64_0_2_1_3 : S4x2048x8x64.Transposes [0, 2, 1, 3] S4x8x2048x64
  bcast_S_S4x8x2048x2048 : S_.BroadcastsInDim S4x8x2048x2048 (![] : Fin 0 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  transposes_S4x8x2048x64_S4x2048x8x64_0_2_1_3 : S4x8x2048x64.Transposes [0, 2, 1, 3] S4x2048x8x64
  shapeCasts_S4x2048x8x64_S4x2048x512 : S4x2048x8x64.ShapeCasts S4x2048x512
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.AttnSpec.lean ====
/-
  Scaled dot-product attention over eight heads of width 64, as one function of the three argument arrays
  Q, K, V : [4, 2048, 512] read at the extended reals.

  Column c of a 512-wide row belongs to head c / 64, lane c % 64. For batch b, head h and query row n the score
  against key row j is  s j = (∑ e, Q(b, n, 64h+e) · K(b, j, 64h+e)) · 2⁻³, and the result at (b, n, 64h+d) is

      ∑ j, (exp (s j − M) / ∑ j', exp (s j' − M)) · V(b, j, 64h+d),        M = the maximum of the s j from −∞

  (`attn`, through `softmaxRow`: the arrangement in which a softmax is followed by a matrix product).

  The same number can be accumulated tile by tile over the keys (`mNext`, `lNext`, `aNext`, iterated by
  `onM`, `onL`, `onA`): the running maximum m, the running sum l of exp (s − m) and the running weighted sum a of
  the values, each rescaled by exp (m_old − m_new) when the maximum moves; the result is then a / l.
  That the two arrangements agree for real scores and values is proved elsewhere; here are only the definitions.
-/
import Idealize.ShloMosaic.PureOps.Ideal
import Idealize.ShloMosaic.Lib.ValueIdx

noncomputable section

namespace Cert.AttnSpec

open Idealize.ShloMosaic Idealize.ShloMosaic.ValueIdx

/-- An array of shape [4, 2048, 512] at the extended reals. -/
abbrev Arr : Type := (⟨3, ![4, 2048, 512]⟩ : Shape).Idx → EReal

/-- Column `64·h + e`: lane `e` of head `h` in a 512-wide row. -/
def hcol (h : Fin 8) (e : Fin 64) : Fin 512 := ⟨h.val * 64 + e.val, by have := h.isLt; have := e.isLt; omega⟩

/-- Row `512·t + r`: position `r` of tile `t` along the sequence axis. -/
def trow (t : Fin 4) (r : Fin 512) : Fin 2048 := ⟨t.val * 512 + r.val, by have := t.isLt; have := r.isLt; omega⟩

/-- The same row for a tile number given as a natural (taken mod 4, so the function is total). -/
def trowN (n : ℕ) (r : Fin 512) : Fin 2048 :=
  ⟨n % 4 * 512 + r.val, by have := Nat.mod_lt n (show 0 < 4 by decide); have := r.isLt; omega⟩

/-- The head of column `c`. -/
def headOf (c : Fin 512) : Fin 8 := ⟨c.val / 64, by have := c.isLt; omega⟩

/-- The scale 2⁻³ = 1/√64, as the word both programs carry. -/
def scale : EReal := Ideal.ofBits .f32 0x3E000000#32

/-- The scaled score of query row `n` against key row `j`, in head `h` of batch `b`. -/
def score (Q K : Arr) (b : Fin 4) (h : Fin 8) (n j : Fin 2048) : EReal :=
  (∑ e : Fin 64, Q (ix3 b n (hcol h e)) * K (ix3 b j (hcol h e))) * scale

/-- The maximum of finitely many extended reals, from −∞. -/
def maxOf {N : ℕ} (S : Fin N → EReal) : EReal := (Finset.univ : Finset (Fin N)).fold max ⊥ S

/-- One row of softmax(S)·V, the weights normalised before the product. -/
def softmaxRow {N : ℕ} (S V : Fin N → EReal) : EReal :=
  ∑ j, Ideal.div (Ideal.exp (S j - maxOf S)) (∑ j', Ideal.exp (S j' - maxOf S)) * V j

/-- Attention: the result at (b, n, c) is the softmax row of the scores of head c / 64 against column c of V. -/
def attn (Q K V : Arr) : Arr := fun i =>
  softmaxRow (fun j => score Q K (i 0) (headOf (i 2)) (i 1) j) (fun j => V (ix3 (i 0) j (i 2)))

/-! ## The same row accumulated tile by tile -/

/-- The running maximum after a tile with scores `s`. -/
def mNext {W : ℕ} (m : EReal) (s : Fin W → EReal) : EReal := max m (maxOf s)

/-- The running sum of exponentials after the tile: the old sum rescaled, plus the tile's. -/
def lNext {W : ℕ} (m l : EReal) (s : Fin W → EReal) : EReal :=
  Ideal.exp (m - mNext m s) * l + ∑ k, Ideal.exp (s k - mNext m s)

/-- The running weighted sum of one column of values after the tile. -/
def aNext {W : ℕ} (m a : EReal) (s v : Fin W → EReal) : EReal :=
  Ideal.exp (m - mNext m s) * a + ∑ k, Ideal.exp (s k - mNext m s) * v k

/-- The running maximum after tiles 0 … n, from −∞. -/
def onM {W : ℕ} (s : ℕ → Fin W → EReal) : ℕ → EReal
  | 0 => mNext ⊥ (s 0)
  | n + 1 => mNext (onM s n) (s (n + 1))

/-- The running sum after tiles 0 … n, from 0. -/
def onL {W : ℕ} (s : ℕ → Fin W → EReal) : ℕ → EReal
  | 0 => lNext ⊥ 0 (s 0)
  | n + 1 => lNext (onM s n) (onL s n) (s (n + 1))

/-- The running weighted sum after tiles 0 … n, from 0. -/
def onA {W : ℕ} (s v : ℕ → Fin W → EReal) : ℕ → EReal
  | 0 => aNext ⊥ 0 (s 0) (v 0)
  | n + 1 => aNext (onM s n) (onA s v n) (s (n + 1)) (v (n + 1))

/-- The scores of query row `n` against the keys of tile `t`. -/
def tileS (Q K : Arr) (b : Fin 4) (h : Fin 8) (n : Fin 2048) (t : ℕ) (k : Fin 512) : EReal :=
  score Q K b h n (trowN t k)

/-- Column `c` of the values of tile `t`. -/
def tileV (V : Arr) (b : Fin 4) (c : Fin 512) (t : ℕ) (k : Fin 512) : EReal := V (ix3 b (trowN t k) c)

end Cert.AttnSpec

end
-- ==== Proof.KernelPieces.lean ====
/-
  What one grid point of the attention kernel leaves behind, as a composition of the body's pure terms.

  The kernel walks the key tiles of one (batch, query tile) pair in order and carries four blocks from one
  key tile to the next: the running row maximum m, the running row sum l of exponentials, the running
  weighted sum acc of the values, and the query block rounded and re-laid by heads. Three kinds of point
  occur: the first key tile (which first sets m = −∞, l = 0, acc = 0 and lays out the query block, and then
  updates like any other), a middle tile, and the last tile (which updates and then also writes the output
  block acc / l). The generated frame names what each kind of point leaves in each carried block as the
  list of that point's stores into the block, read back. Each such block is stored whole, so the read-back is
  the value of the LAST store into it, and every load inside the body reads either the block the point was
  handed or the value of the one whole store that preceded it. The lemmas below say exactly this, for any float model F:

    m_new   = k0_pay3 (k0_pay11 K q m)                                   (row maximum, updated)
    l_new   = k0_pay1 (k0_pay14 K q m l)                                 (row sum, rescaled and updated)
    acc_new = k0_pay2 (k0_pay9 V) (k0_pay12 K q m) (k0_pay13 K q m) acc  (weighted sum, rescaled and updated)
    out     = k0_pay4 acc_new l_new                                      (last tile only)

  with K, V the key and value blocks, q the carried query layout and m, l, acc the carried blocks; at the
  first tile q = k0_pay8 Q and m, l, acc are the initial blocks k0_pay5, k0_pay6, k0_pay7.
-/
import proofs.«151038_j7224134991903_2_alg».proof.Proof.Gen.KernelIdeal.Frame
import proofs.«151038_j7224134991903_2_alg».proof.Proof.AttnSpec
import Idealize.ShloMosaic.Lib.ValueIdx
import Idealize.ShloMosaic.Lib.Pipeline.Value
import Idealize.ShloMosaic.PureOps.Ideal.Laws

noncomputable section

namespace Cert.AttnKernel

open Cert.KernelIdeal Cert.KernelIdeal.Gen Cert.AttnSpec
open Idealize.ShloMosaic Idealize.ShloMosaic.ValueIdx Idealize.ShloMosaic.TcCoe Idealize.SL.Sem

variable {F : FTy → Type} [FloatOps F]

/-- The offsets of a whole-block access of a rank-3 block are all zero. -/
theorem pieces_off_zero : (![0, 0, 0] : Fin 3 → Nat) = fun _ => 0 := funext fun a => by fin_cases a <;> rfl

/-- At the first key tile the running maximum is first set to −∞ and then replaced: what is left is the maximum of −∞ and the tile's row maxima, the scores taken against the query block just re-laid by heads. -/
theorem sout_A_0 (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (arg10 : Memref sig .tc .vmem S8x512x64 .bf16) (harg10 : arg10.IsWhole) (hc0 : cond0_0 i) (hc1 : ¬cond0_1 i) (x0 x1 x2 : Vec F S1x512x512 .f32) :
    sout0_A_0 c i arg3 harg3 arg4 harg4 arg5 harg5 arg6 harg6 arg7 harg7 arg8 harg8 arg9 harg9 arg10 harg10 hc0 hc1 x0 x1 x2 = k0_pay3 (k0_pay11 x1 (k0_pay8 x0) (k0_pay5 (F := F))) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S8x512x1) pieces_off_zero]
  simp only [View.readAt_eq_ld, harg3.read_unread, harg4.read_unread, harg5.read_unread, harg6.read_unread, harg7.read_unread, harg8.read_unread, harg9.read_unread, harg10.read_unread, View.ld_unit_zero (S := S1x512x512) pieces_off_zero, View.ld_unit_zero (S := S8x512x1) pieces_off_zero, View.ld_unit_zero (S := S8x512x64) pieces_off_zero, View.readCov_unit_zero (S := S8x512x1) _ pieces_off_zero, View.readCov_unit_zero (S := S8x512x64) _ pieces_off_zero]

/-- At the first key tile the running sum is first set to 0 and then replaced: what is left is the rescaled 0 plus the tile's row sums of exponentials. -/
theorem sout_A_1 (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (arg10 : Memref sig .tc .vmem S8x512x64 .bf16) (harg10 : arg10.IsWhole) (hc0 : cond0_0 i) (hc1 : ¬cond0_1 i) (x0 x1 x2 : Vec F S1x512x512 .f32) :
    sout0_A_1 c i arg3 harg3 arg4 harg4 arg5 harg5 arg6 harg6 arg7 harg7 arg8 harg8 arg9 harg9 arg10 harg10 hc0 hc1 x0 x1 x2 = k0_pay1 (k0_pay14 x1 (k0_pay8 x0) (k0_pay5 (F := F)) (k0_pay6 (F := F))) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S8x512x1) pieces_off_zero]
  simp only [View.readAt_eq_ld, harg3.read_unread, harg4.read_unread, harg5.read_unread, harg6.read_unread, harg7.read_unread, harg8.read_unread, harg9.read_unread, harg10.read_unread, View.ld_unit_zero (S := S1x512x512) pieces_off_zero, View.ld_unit_zero (S := S8x512x1) pieces_off_zero, View.ld_unit_zero (S := S8x512x64) pieces_off_zero, View.readCov_unit_zero (S := S8x512x1) _ pieces_off_zero, View.readCov_unit_zero (S := S8x512x64) _ pieces_off_zero]

/-- At the first key tile the weighted sum of values is first set to 0 and then replaced: what is left is the rescaled 0 plus the tile's exponentials times the value block. -/
theorem sout_A_2 (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (arg10 : Memref sig .tc .vmem S8x512x64 .bf16) (harg10 : arg10.IsWhole) (hc0 : cond0_0 i) (hc1 : ¬cond0_1 i) (x0 x1 x2 : Vec F S1x512x512 .f32) :
    sout0_A_2 c i arg3 harg3 arg4 harg4 arg5 harg5 arg6 harg6 arg7 harg7 arg8 harg8 arg9 harg9 arg10 harg10 hc0 hc1 x0 x1 x2 = k0_pay2 (k0_pay9 x2) (k0_pay12 x1 (k0_pay8 x0) (k0_pay5 (F := F))) (k0_pay13 x1 (k0_pay8 x0) (k0_pay5 (F := F))) (k0_pay7 (F := F)) := by
  unfold sout0_A_2
  rw [View.read_writes_eq_canon _ _ _ (scover0_A_2 c i arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S8x512x64) pieces_off_zero]
  simp only [View.readAt_eq_ld, harg3.read_unread, harg4.read_unread, harg5.read_unread, harg6.read_unread, harg7.read_unread, harg8.read_unread, harg9.read_unread, harg10.read_unread, View.ld_unit_zero (S := S1x512x512) pieces_off_zero, View.ld_unit_zero (S := S8x512x1) pieces_off_zero, View.ld_unit_zero (S := S8x512x64) pieces_off_zero, View.readCov_unit_zero (S := S8x512x1) _ pieces_off_zero, View.readCov_unit_zero (S := S8x512x64) _ pieces_off_zero]

/-- At the first key tile the query block, rounded and re-laid by heads, is kept for the later tiles. -/
theorem sout_A_3 (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (arg10 : Memref sig .tc .vmem S8x512x64 .bf16) (harg10 : arg10.IsWhole) (hc0 : cond0_0 i) (hc1 : ¬cond0_1 i) (x0 x1 x2 : Vec F S1x512x512 .f32) :
    sout0_A_3 c i arg3 harg3 arg4 harg4 arg5 harg5 arg6 harg6 arg7 harg7 arg8 harg8 arg9 harg9 arg10 harg10 hc0 hc1 x0 x1 x2 = k0_pay8 x0 := by
  unfold sout0_A_3
  rw [View.read_writes_eq_canon _ _ _ (scover0_A_3 c i arg3 harg3 arg4 harg4 arg5 harg5 arg6 harg6 arg7 harg7 arg8 harg8 arg9 harg9 arg10 harg10 hc0 hc1 x0 x1 x2)]
  unfold kernelRun0_A
  dsimp only
  sl_unfold_words
  rw [View.canon_unit_zero (S := S8x512x64) pieces_off_zero]
  simp only [View.readAt_eq_ld, harg3.read_unread, harg4.read_unread, harg5.read_unread, harg6.read_unread, harg7.read_unread, harg8.read_unread, harg9.read_unread, harg10.read_unread, View.ld_unit_zero (S := S1x512x512) pieces_off_zero, View.ld_unit_zero (S := S8x512x1) pieces_off_zero, View.ld_unit_zero (S := S8x512x64) pieces_off_zero, View.readCov_unit_zero (S := S8x512x1) _ pieces_off_zero, View.readCov_unit_zero (S := S8x512x64) _ pieces_off_zero]

/-- At a middle key tile the running maximum becomes the maximum of the carried one and the tile's row maxima. -/
theorem sout_B_0 (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (arg10 : Memref sig .tc .vmem S8x512x64 .bf16) (harg10 : arg10.IsWhole) (hc0 : ¬cond0_0 i) (hc1 : ¬cond0_1 i) (x0 x1 x2 : Vec F S1x512x512 .f32) (xs0 xs1 : Vec F S8x512x1 .f32) (xs2 : Vec F S8x512x64 .f32) (xs3 : Vec F S8x512x64 .bf16) :
    sout0_B_0 c i arg3 harg3 arg4 harg4 arg5 harg5 arg6 harg6 arg7 harg7 arg8 harg8 arg9 harg9 arg10 harg10 hc0 hc1 x0 x1 x2 xs0 xs1 xs2 xs3 = k0_pay3 (k0_pay11 x1 xs3 xs0) := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero (S := S8x512x1) pieces_off_zero]
  simp only [View.readAt_eq_ld, harg3.read_unread, harg4.read_unread, harg5.read_unread, harg6.read_unread, harg7.read_unread, harg8.read_unread, harg9.read_unread, harg10.read_unread, View.ld_unit_zero (S := S1x512x512) pieces_off_zero, View.ld_unit_zero (S := S8x512x1) pieces_off_zero, View.ld_unit_zero (S := S8x512x64) pieces_off_zero, View.readCov_unit_zero (S := S8x512x1) _ pieces_off_zero, View.readCov_unit_zero (S := S8x512x64) _ pieces_off_zero]

/-- At a middle key tile the running sum becomes the carried one rescaled plus the tile's row sums of exponentials. -/
theorem sout_B_1 (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (arg10 : Memref sig .tc .vmem S8x512x64 .bf16) (harg10 : arg10.IsWhole) (hc0 : ¬cond0_0 i) (hc1 : ¬cond0_1 i) (x0 x1 x2 : Vec F S1x512x512 .f32) (xs0 xs1 : Vec F S8x512x1 .f32) (xs2 : Vec F S8x512x64 .f32) (xs3 : Vec F S8x512x64 .bf16) :
    sout0_B_1 c i arg3 harg3 arg4 harg4 arg5 harg5 arg6 harg6 arg7 harg7 arg8 harg8 arg9 harg9 arg10 harg10 hc0 hc1 x0 x1 x2 xs0 xs1 xs2 xs3 = k0_pay1 (k0_pay14 x1 xs3 xs0 xs1) := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero (S := S8x512x1) pieces_off_zero]
  simp only [View.readAt_eq_ld, harg3.read_unread, harg4.read_unread, harg5.read_unread, harg6.read_unread, harg7.read_unread, harg8.read_unread, harg9.read_unread, harg10.read_unread, View.ld_unit_zero (S := S1x512x512) pieces_off_zero, View.ld_unit_zero (S := S8x512x1) pieces_off_zero, View.ld_unit_zero (S := S8x512x64) pieces_off_zero, View.readCov_unit_zero (S := S8x512x1) _ pieces_off_zero, View.readCov_unit_zero (S := S8x512x64) _ pieces_off_zero]

/-- At a middle key tile the weighted sum of values becomes the carried one rescaled plus the tile's exponentials times the value block. -/
theorem sout_B_2 (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (arg10 : Memref sig .tc .vmem S8x512x64 .bf16) (harg10 : arg10.IsWhole) (hc0 : ¬cond0_0 i) (hc1 : ¬cond0_1 i) (x0 x1 x2 : Vec F S1x512x512 .f32) (xs0 xs1 : Vec F S8x512x1 .f32) (xs2 : Vec F S8x512x64 .f32) (xs3 : Vec F S8x512x64 .bf16) :
    sout0_B_2 c i arg3 harg3 arg4 harg4 arg5 harg5 arg6 harg6 arg7 harg7 arg8 harg8 arg9 harg9 arg10 harg10 hc0 hc1 x0 x1 x2 xs0 xs1 xs2 xs3 = k0_pay2 (k0_pay9 x2) (k0_pay12 x1 xs3 xs0) (k0_pay13 x1 xs3 xs0) xs2 := by
  unfold sout0_B_2
  rw [View.read_writes_eq_canon _ _ _ (scover0_B_2 c i arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero (S := S8x512x64) pieces_off_zero]
  simp only [View.readAt_eq_ld, harg3.read_unread, harg4.read_unread, harg5.read_unread, harg6.read_unread, harg7.read_unread, harg8.read_unread, harg9.read_unread, harg10.read_unread, View.ld_unit_zero (S := S1x512x512) pieces_off_zero, View.ld_unit_zero (S := S8x512x1) pieces_off_zero, View.ld_unit_zero (S := S8x512x64) pieces_off_zero, View.readCov_unit_zero (S := S8x512x1) _ pieces_off_zero, View.readCov_unit_zero (S := S8x512x64) _ pieces_off_zero]

/-- At the last key tile the running maximum is updated as at a middle tile. -/
theorem sout_C_0 (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (arg10 : Memref sig .tc .vmem S8x512x64 .bf16) (harg10 : arg10.IsWhole) (hc0 : ¬cond0_0 i) (hc1 : cond0_1 i) (x0 x1 x2 : Vec F S1x512x512 .f32) (xs0 xs1 : Vec F S8x512x1 .f32) (xs2 : Vec F S8x512x64 .f32) (xs3 : Vec F S8x512x64 .bf16) :
    sout0_C_0 c i arg3 harg3 arg4 harg4 arg5 harg5 arg6 harg6 arg7 harg7 arg8 harg8 arg9 harg9 arg10 harg10 hc0 hc1 x0 x1 x2 xs0 xs1 xs2 xs3 = k0_pay3 (k0_pay11 x1 xs3 xs0) := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero (S := S8x512x1) pieces_off_zero]
  simp only [View.readAt_eq_ld, harg3.read_unread, harg4.read_unread, harg5.read_unread, harg6.read_unread, harg7.read_unread, harg8.read_unread, harg9.read_unread, harg10.read_unread, View.ld_unit_zero (S := S1x512x512) pieces_off_zero, View.ld_unit_zero (S := S8x512x1) pieces_off_zero, View.ld_unit_zero (S := S8x512x64) pieces_off_zero, View.readCov_unit_zero (S := S8x512x1) _ pieces_off_zero, View.readCov_unit_zero (S := S8x512x64) _ pieces_off_zero]

/-- At the last key tile the running sum is updated as at a middle tile. -/
theorem sout_C_1 (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (arg10 : Memref sig .tc .vmem S8x512x64 .bf16) (harg10 : arg10.IsWhole) (hc0 : ¬cond0_0 i) (hc1 : cond0_1 i) (x0 x1 x2 : Vec F S1x512x512 .f32) (xs0 xs1 : Vec F S8x512x1 .f32) (xs2 : Vec F S8x512x64 .f32) (xs3 : Vec F S8x512x64 .bf16) :
    sout0_C_1 c i arg3 harg3 arg4 harg4 arg5 harg5 arg6 harg6 arg7 harg7 arg8 harg8 arg9 harg9 arg10 harg10 hc0 hc1 x0 x1 x2 xs0 xs1 xs2 xs3 = k0_pay1 (k0_pay14 x1 xs3 xs0 xs1) := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero (S := S8x512x1) pieces_off_zero]
  simp only [View.readAt_eq_ld, harg3.read_unread, harg4.read_unread, harg5.read_unread, harg6.read_unread, harg7.read_unread, harg8.read_unread, harg9.read_unread, harg10.read_unread, View.ld_unit_zero (S := S1x512x512) pieces_off_zero, View.ld_unit_zero (S := S8x512x1) pieces_off_zero, View.ld_unit_zero (S := S8x512x64) pieces_off_zero, View.readCov_unit_zero (S := S8x512x1) _ pieces_off_zero, View.readCov_unit_zero (S := S8x512x64) _ pieces_off_zero]

/-- At the last key tile the weighted sum of values is updated as at a middle tile. -/
theorem sout_C_2 (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (arg10 : Memref sig .tc .vmem S8x512x64 .bf16) (harg10 : arg10.IsWhole) (hc0 : ¬cond0_0 i) (hc1 : cond0_1 i) (x0 x1 x2 : Vec F S1x512x512 .f32) (xs0 xs1 : Vec F S8x512x1 .f32) (xs2 : Vec F S8x512x64 .f32) (xs3 : Vec F S8x512x64 .bf16) :
    sout0_C_2 c i arg3 harg3 arg4 harg4 arg5 harg5 arg6 harg6 arg7 harg7 arg8 harg8 arg9 harg9 arg10 harg10 hc0 hc1 x0 x1 x2 xs0 xs1 xs2 xs3 = k0_pay2 (k0_pay9 x2) (k0_pay12 x1 xs3 xs0) (k0_pay13 x1 xs3 xs0) xs2 := by
  unfold sout0_C_2
  rw [View.read_writes_eq_canon _ _ _ (scover0_C_2 c i arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero (S := S8x512x64) pieces_off_zero]
  simp only [View.readAt_eq_ld, harg3.read_unread, harg4.read_unread, harg5.read_unread, harg6.read_unread, harg7.read_unread, harg8.read_unread, harg9.read_unread, harg10.read_unread, View.ld_unit_zero (S := S1x512x512) pieces_off_zero, View.ld_unit_zero (S := S8x512x1) pieces_off_zero, View.ld_unit_zero (S := S8x512x64) pieces_off_zero, View.readCov_unit_zero (S := S8x512x1) _ pieces_off_zero, View.readCov_unit_zero (S := S8x512x64) _ pieces_off_zero]

/-- At the last key tile the output block is written: the updated weighted sum divided, row by row, by the updated running sum, the heads laid back side by side along the 512 columns. -/
theorem out_C_3 (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (arg10 : Memref sig .tc .vmem S8x512x64 .bf16) (harg10 : arg10.IsWhole) (hc0 : ¬cond0_0 i) (hc1 : cond0_1 i) (x0 x1 x2 : Vec F S1x512x512 .f32) (xs0 xs1 : Vec F S8x512x1 .f32) (xs2 : Vec F S8x512x64 .f32) (xs3 : Vec F S8x512x64 .bf16) :
    out0_C_3 c i arg3 harg3 arg4 harg4 arg5 harg5 arg6 harg6 arg7 harg7 arg8 harg8 arg9 harg9 arg10 harg10 hc0 hc1 x0 x1 x2 xs0 xs1 xs2 xs3 = k0_pay4 (k0_pay2 (k0_pay9 x2) (k0_pay12 x1 xs3 xs0) (k0_pay13 x1 xs3 xs0) xs2) (k0_pay1 (k0_pay14 x1 xs3 xs0 xs1)) := by
  unfold out0_C_3
  rw [View.read_writes_eq_canon _ _ _ (cover0_C_3 c i arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero (S := S1x512x512) pieces_off_zero]
  simp only [View.readAt_eq_ld, harg3.read_unread, harg4.read_unread, harg5.read_unread, harg6.read_unread, harg7.read_unread, harg8.read_unread, harg9.read_unread, harg10.read_unread, View.ld_unit_zero (S := S1x512x512) pieces_off_zero, View.ld_unit_zero (S := S8x512x1) pieces_off_zero, View.ld_unit_zero (S := S8x512x64) pieces_off_zero, View.readCov_unit_zero (S := S8x512x1) _ pieces_off_zero, View.readCov_unit_zero (S := S8x512x64) _ pieces_off_zero]

end Cert.AttnKernel

end
-- ==== Proof.PayLayout.lean ====
/-
  The layout payloads of the attention kernel read at an index over the extended reals.

  The kernel splits a [1, 512, 512] block into eight heads of width 64 by dropping the unit axis, reshaping the
  512 columns to [8, 64] and bringing the head axis to the front; the narrowing to 16 bits in between is the identity
  on extended reals. So head `h`, row `r`, lane `e` of the split block is column `64·h + e` of row `r`. The final
  division undoes the split: column `64·h + d` of row `r` of the result is the accumulator over the running sum at
  head `h`, row `r`. The remaining payloads are identity reshapes and constant fills.
-/
import proofs.«151038_j7224134991903_2_alg».proof.Proof.Gen.KernelIdeal.Frame
import proofs.«151038_j7224134991903_2_alg».proof.Proof.AttnSpec
import Idealize.ShloMosaic.Lib.ValueIdx
import Idealize.ShloMosaic.Lib.Pipeline.Value
import Idealize.ShloMosaic.PureOps.Ideal.Laws

noncomputable section

namespace Cert.AttnKernel

open Cert.KernelIdeal Cert.KernelIdeal.Gen Cert.AttnSpec
open Idealize.ShloMosaic Idealize.ShloMosaic.ValueIdx Idealize.ShloMosaic.TcCoe Idealize.SL.Sem

/-! ## The head split and its inverse, one layout operation at a time

Column `64·h + e` of a 512-wide row is lane `e` of head `h`. Each lemma reads one reshape or transpose at an index
given by its coordinates; the row-major positions on the two sides are equal by linear arithmetic. -/

/-- Dropping the leading unit axis: [1, 512, 512] → [512, 512] at (r, c) reads (0, r, c). -/
theorem dropLead_apply {α : Type} (v : S1x512x512.Idx → α) (hc : S1x512x512.ShapeCasts S512x512) (r c : Fin 512) :
    shapeCast S512x512 v hc (ix2 r c) = v (ix3 0 r c) := by
  refine shapeCast_apply v hc (ix2 r c) (ix3 0 r c) ?_
  rw [Shape.rowMajor_val_three, Shape.rowMajor_val_two]
  show (0 * 512 + r.val) * 512 + c.val = r.val * 512 + c.val
  omega

/-- Adding the leading unit axis back: [512, 512] → [1, 512, 512] at (0, r, c) reads (r, c). -/
theorem addLead_apply {α : Type} (v : S512x512.Idx → α) (hc : S512x512.ShapeCasts S1x512x512) (r c : Fin 512) :
    shapeCast S1x512x512 v hc (ix3 0 r c) = v (ix2 r c) := by
  refine shapeCast_apply v hc (ix3 0 r c) (ix2 r c) ?_
  rw [Shape.rowMajor_val_three, Shape.rowMajor_val_two]
  show r.val * 512 + c.val = (0 * 512 + r.val) * 512 + c.val
  omega

/-- Splitting the columns into heads: [512, 512] → [512, 8, 64] at (r, h, e) reads (r, 64·h + e). -/
theorem splitCols_apply {α : Type} (v : S512x512.Idx → α) (hc : S512x512.ShapeCasts S512x8x64) (r : Fin 512) (h : Fin 8) (e : Fin 64) :
    shapeCast S512x8x64 v hc (ix3 r h e) = v (ix2 r (hcol h e)) := by
  refine shapeCast_apply v hc (ix3 r h e) (ix2 r (hcol h e)) ?_
  rw [Shape.rowMajor_val_three, Shape.rowMajor_val_two]
  show r.val * 512 + (h.val * 64 + e.val) = (r.val * 8 + h.val) * 64 + e.val
  omega

/-- Merging the heads back into columns: [512, 8, 64] → [512, 512] at (r, 64·h + e) reads (r, h, e). -/
theorem mergeCols_apply {α : Type} (v : S512x8x64.Idx → α) (hc : S512x8x64.ShapeCasts S512x512) (r : Fin 512) (h : Fin 8) (e : Fin 64) :
    shapeCast S512x512 v hc (ix2 r (hcol h e)) = v (ix3 r h e) := by
  refine shapeCast_apply v hc (ix2 r (hcol h e)) (ix3 r h e) ?_
  rw [Shape.rowMajor_val_three, Shape.rowMajor_val_two]
  show (r.val * 8 + h.val) * 64 + e.val = r.val * 512 + (h.val * 64 + e.val)
  omega

/-- Bringing the head axis to the front: [512, 8, 64] → [8, 512, 64] at (h, r, e) reads (r, h, e). -/
theorem headsFirst_apply {α : Type} (v : S512x8x64.Idx → α) (ht : S512x8x64.Transposes [1, 0, 2] S8x512x64) (h : Fin 8) (r : Fin 512) (e : Fin 64) :
    transpose S8x512x64 [1, 0, 2] v ht (ix3 h r e) = v (ix3 r h e) :=
  transpose_apply [1, 0, 2] v ht (ix3 h r e) (ix3 r h e) (fun b => match b with | ⟨0, _⟩ => rfl | ⟨1, _⟩ => rfl | ⟨2, _⟩ => rfl)

/-- Bringing the row axis to the front: [8, 512, 64] → [512, 8, 64] at (r, h, e) reads (h, r, e). -/
theorem rowsFirst_apply {α : Type} (v : S8x512x64.Idx → α) (ht : S8x512x64.Transposes [1, 0, 2] S512x8x64) (r : Fin 512) (h : Fin 8) (e : Fin 64) :
    transpose S512x8x64 [1, 0, 2] v ht (ix3 r h e) = v (ix3 h r e) :=
  transpose_apply [1, 0, 2] v ht (ix3 r h e) (ix3 h r e) (fun b => match b with | ⟨0, _⟩ => rfl | ⟨1, _⟩ => rfl | ⟨2, _⟩ => rfl)

/-! ## The head split of a block -/

/-- The values' block split into heads: head `h`, key row `k`, lane `d` is column `64·h + d` of row `k`. -/
theorem pay9_apply (x2 : Vec Ideal S1x512x512 .f32) (h : Fin 8) (k : Fin 512) (d : Fin 64) :
    k0_pay9 (F := Ideal) x2 (ix3 h k d) = x2 (ix3 0 k (hcol h d)) := by
  unfold k0_pay9
  refine (headsFirst_apply _ _ h k d).trans ?_
  refine (splitCols_apply _ _ k h d).trans ?_
  refine (truncf_apply (φ := .f32) (ψ := .bf16) _ bitsLt_bf16_f32 _).trans ?_
  exact dropLead_apply _ _ k (hcol h d)

/-- The queries' block split into heads, as stored in the hoisted copy. -/
theorem pay8_apply (x0 : Vec Ideal S1x512x512 .f32) (h : Fin 8) (r : Fin 512) (e : Fin 64) :
    k0_pay8 (F := Ideal) x0 (ix3 h r e) = x0 (ix3 0 r (hcol h e)) := by
  unfold k0_pay8
  rw [shapeCast_self]
  refine (headsFirst_apply _ _ h r e).trans ?_
  refine (splitCols_apply _ _ r h e).trans ?_
  refine (truncf_apply (φ := .f32) (ψ := .bf16) _ bitsLt_bf16_f32 _).trans ?_
  exact dropLead_apply _ _ r (hcol h e)

/-! ## The inverse of the head split, around the final division -/

/-- The running sum broadcast along the lanes: [8, 512, 1] → [8, 512, 64] at (h, r, d) reads (h, r, 0). -/
theorem lanes_apply {α : Type} (v : S8x512x1.Idx → α) (hb : S8x512x1.Broadcasts S8x512x64) (h : Fin 8) (r : Fin 512) (d : Fin 64) :
    broadcastTo S8x512x64 v hb (ix3 h r d) = v (ix3 h r 0) :=
  broadcastTo_apply v hb (ix3 h r d) (ix3 h r 0) fun a => match a with
    | ⟨0, _⟩ => by show h.val = if (8 : Nat) = 1 then 0 else h.val; rfl
    | ⟨1, _⟩ => by show r.val = if (512 : Nat) = 1 then 0 else r.val; rfl
    | ⟨2, _⟩ => by show (0 : Nat) = if (1 : Nat) = 1 then 0 else d.val; rfl

/-- The result block: column `64·h + d` of row `r` is the accumulator over the running sum at head `h`, row `r`. -/
theorem pay4_apply (a : Vec Ideal S8x512x64 .f32) (l : Vec Ideal S8x512x1 .f32) (r : Fin 512) (h : Fin 8) (d : Fin 64) :
    k0_pay4 (F := Ideal) a l (ix3 0 r (hcol h d)) = Ideal.div (a (ix3 h r d)) (l (ix3 h r 0)) := by
  unfold k0_pay4
  refine (addLead_apply _ _ r (hcol h d)).trans ?_
  refine (mergeCols_apply _ _ r h d).trans ?_
  refine (rowsFirst_apply _ _ r h d).trans ?_
  refine (divf_apply _ _ _).trans ?_
  exact congrArg (Ideal.div (a (ix3 h r d))) (lanes_apply _ _ h r d)

/-! ## The identity reshapes and the constant fills -/

/-- A reshape to the same shape changes nothing. -/
theorem pay1_eq (v : FVec Ideal S8x512x1 .f32) : k0_pay1 (F := Ideal) v = v := by
  unfold k0_pay1
  exact shapeCast_self _ _

/-- A reshape to the same shape changes nothing. -/
theorem pay3_eq (v : FVec Ideal S8x512x1 .f32) : k0_pay3 (F := Ideal) v = v := by
  unfold k0_pay3
  exact shapeCast_self _ _

/-- The word the running maximum starts from is −∞. -/
theorem ofBits_negInf_f32 : Ideal.ofBits .f32 0xFF800000#32 = (⊥ : EReal) := by simp [Ideal.ofBits, Ideal.ieee]

/-- The running maximum starts at −∞ everywhere. -/
theorem pay5_apply (j : S8x512x1.Idx) : k0_pay5 (F := Ideal) j = (⊥ : EReal) := by
  unfold k0_pay5
  rw [shapeCast_self]
  exact ofBits_negInf_f32

/-- The running sum starts at 0 everywhere. -/
theorem pay6_apply (j : S8x512x1.Idx) : k0_pay6 (F := Ideal) j = (0 : EReal) := by
  unfold k0_pay6
  rw [shapeCast_self]
  exact Ideal.ofBits_zero_f32

/-- The accumulator starts at 0 everywhere. -/
theorem pay7_apply (j : S8x512x64.Idx) : k0_pay7 (F := Ideal) j = (0 : EReal) := by
  unfold k0_pay7
  rw [shapeCast_self]
  exact Ideal.ofBits_zero_f32

end Cert.AttnKernel

end
-- ==== Proof.PayMatmul.lean ====
import proofs.«151038_j7224134991903_2_alg».proof.Proof.Gen.KernelIdeal.Frame
import proofs.«151038_j7224134991903_2_alg».proof.Proof.AttnSpec
import proofs.«151038_j7224134991903_2_alg».proof.Proof.PayLayout
import Idealize.ShloMosaic.Lib.ValueIdx
import Idealize.ShloMosaic.Lib.Pipeline.Value
import Idealize.ShloMosaic.PureOps.Ideal.Laws

noncomputable section

namespace Cert.AttnKernel

open Cert.KernelIdeal Cert.KernelIdeal.Gen Cert.AttnSpec
open Idealize.ShloMosaic Idealize.ShloMosaic.ValueIdx Idealize.ShloMosaic.TcCoe Idealize.SL.Sem

/-!
  The two matrix products of the attention kernel's body, read at an index over the extended reals.

  Both are batched over the eight heads (axis 0 of every operand) and contract one axis into a zero accumulator, so each
  entry of the result is a finite sum of products:

  * the scores: (Q·Kᵀ)(h, r, k) = ∑ e, Q(h, r, e) · K(h, k, e) over the 64 lanes of head h, then times the scale 2⁻³,
    where K(h, k, e) is the head split of the key block, K(h, k, e) = x(0, k, 64h + e);
  * the accumulator update: a(h, r, d) ↦ f(h, r) · a(h, r, d) + ∑ k, P(h, r, k) · V(h, k, d) over the 512 keys of the tile,
    f the row's rescaling factor, carried as a column [8, 512, 1] and read along the lanes.

  The change of format of an operand (f32 to bf16) is the identity on the extended reals, and a cast to the same shape is
  the identity. For each product the operands' indices are first computed axis by axis from the dimension numbers
  (batch axis: the result's axis 0; free axis: the result's axis 1 or 2; contracted axis: the summation variable), then the
  sum over the one-axis contraction index is re-indexed by its coordinate.
-/

/-! ## The product P·V: the operands' indices -/

theorem pv_lhs_0 (j : S8x512x64.Idx) (q : dot_S8x512x512_S8x512x64_S8x512x64_2_1_1_2_0_0.contr.Idx) : (dot_S8x512x512_S8x512x64_S8x512x64_2_1_1_2_0_0.lhsIdx j q 0).val = (j 0).val := by
  unfold DotDims.lhsIdx
  rw [dif_pos (show (0 : Fin S8x512x512.rank) ∈ dot_S8x512x512_S8x512x64_S8x512x64_2_1_1_2_0_0.lhsBatch by decide)]
  rfl
theorem pv_lhs_1 (j : S8x512x64.Idx) (q : dot_S8x512x512_S8x512x64_S8x512x64_2_1_1_2_0_0.contr.Idx) : (dot_S8x512x512_S8x512x64_S8x512x64_2_1_1_2_0_0.lhsIdx j q 1).val = (j 1).val := by
  unfold DotDims.lhsIdx
  rw [dif_neg (show ¬(1 : Fin S8x512x512.rank) ∈ dot_S8x512x512_S8x512x64_S8x512x64_2_1_1_2_0_0.lhsBatch by decide), dif_pos (show (1 : Fin S8x512x512.rank) ∈ dot_S8x512x512_S8x512x64_S8x512x64_2_1_1_2_0_0.lhsNonContracting by decide)]
  rfl
theorem pv_lhs_2 (j : S8x512x64.Idx) (q : dot_S8x512x512_S8x512x64_S8x512x64_2_1_1_2_0_0.contr.Idx) : (dot_S8x512x512_S8x512x64_S8x512x64_2_1_1_2_0_0.lhsIdx j q 2).val = (q ⟨0, by decide⟩).val :=
  dot_S8x512x512_S8x512x64_S8x512x64_2_1_1_2_0_0.lhsIdx_val_of_single rfl j q
theorem pv_rhs_0 (j : S8x512x64.Idx) (q : dot_S8x512x512_S8x512x64_S8x512x64_2_1_1_2_0_0.contr.Idx) : (dot_S8x512x512_S8x512x64_S8x512x64_2_1_1_2_0_0.rhsIdx j q 0).val = (j 0).val := by
  unfold DotDims.rhsIdx
  rw [dif_pos (show (0 : Fin S8x512x64.rank) ∈ dot_S8x512x512_S8x512x64_S8x512x64_2_1_1_2_0_0.rhsBatch by decide)]
  rfl
theorem pv_rhs_1 (j : S8x512x64.Idx) (q : dot_S8x512x512_S8x512x64_S8x512x64_2_1_1_2_0_0.contr.Idx) : (dot_S8x512x512_S8x512x64_S8x512x64_2_1_1_2_0_0.rhsIdx j q 1).val = (q ⟨0, by decide⟩).val :=
  dot_S8x512x512_S8x512x64_S8x512x64_2_1_1_2_0_0.rhsIdx_val_of_single rfl j q
theorem pv_rhs_2 (j : S8x512x64.Idx) (q : dot_S8x512x512_S8x512x64_S8x512x64_2_1_1_2_0_0.contr.Idx) : (dot_S8x512x512_S8x512x64_S8x512x64_2_1_1_2_0_0.rhsIdx j q 2).val = (j 2).val := by
  unfold DotDims.rhsIdx
  rw [dif_neg (show ¬(2 : Fin S8x512x64.rank) ∈ dot_S8x512x512_S8x512x64_S8x512x64_2_1_1_2_0_0.rhsBatch by decide), dif_pos (show (2 : Fin S8x512x64.rank) ∈ dot_S8x512x512_S8x512x64_S8x512x64_2_1_1_2_0_0.rhsNonContracting by decide)]
  rfl

/-- The product P·V of the kernel, batched over the heads and contracting the key axis, read at (h, r, d):
    the sum over the keys k of P(h, r, k) · V(h, k, d). -/
theorem matmulPV_apply (P : FVec Ideal S8x512x512 .bf16) (V : FVec Ideal S8x512x64 .bf16) (h : Fin 8) (r : Fin 512) (d : Fin 64) :
    matmul (F := Ideal) dot_S8x512x512_S8x512x64_S8x512x64_2_1_1_2_0_0 none P V (constant S8x512x64 .f32 0x00000000#32) (ix3 h r d)
      = ∑ k : Fin 512, P (ix3 h r k) * V (ix3 h k d) := by
  refine (Ideal.matmul_constant_zero_apply dot_S8x512x512_S8x512x64_S8x512x64_2_1_1_2_0_0 none P V (ix3 h r d)).trans ?_
  rw [← Equiv.sum_comp (contrEquiv1 dot_S8x512x512_S8x512x64_S8x512x64_2_1_1_2_0_0 512 rfl rfl).symm]
  refine Finset.sum_congr rfl fun k _ => ?_
  have hk := contrEquiv1_symm_val dot_S8x512x512_S8x512x64_S8x512x64_2_1_1_2_0_0 512 rfl rfl k
  have el : dot_S8x512x512_S8x512x64_S8x512x64_2_1_1_2_0_0.lhsIdx (ix3 h r d) ((contrEquiv1 dot_S8x512x512_S8x512x64_S8x512x64_2_1_1_2_0_0 512 rfl rfl).symm k) = ix3 h r k :=
    funext fun a => Fin.ext (by
      match a with
      | ⟨0, _⟩ => exact pv_lhs_0 _ _
      | ⟨1, _⟩ => exact pv_lhs_1 _ _
      | ⟨2, _⟩ => exact (pv_lhs_2 _ _).trans hk)
  have er : dot_S8x512x512_S8x512x64_S8x512x64_2_1_1_2_0_0.rhsIdx (ix3 h r d) ((contrEquiv1 dot_S8x512x512_S8x512x64_S8x512x64_2_1_1_2_0_0 512 rfl rfl).symm k) = ix3 h k d :=
    funext fun a => Fin.ext (by
      match a with
      | ⟨0, _⟩ => exact pv_rhs_0 _ _
      | ⟨1, _⟩ => exact (pv_rhs_1 _ _).trans hk
      | ⟨2, _⟩ => exact pv_rhs_2 _ _)
  rw [el, er]

/-- The accumulator update read at (h, r, d): the old accumulator rescaled by the row's factor, plus the tile's P·V. -/
theorem pay2_apply (v12 : FVec Ideal S8x512x64 .bf16) (v22 : FVec Ideal S8x512x1 .f32) (v25 : FVec Ideal S8x512x512 .f32) (v36 : Vec Ideal S8x512x64 .f32)
    (h : Fin 8) (r : Fin 512) (d : Fin 64) :
    k0_pay2 (F := Ideal) v12 v22 v25 v36 (ix3 h r d)
      = v22 (ix3 h r 0) * v36 (ix3 h r d) + ∑ k : Fin 512, v25 (ix3 h r k) * v12 (ix3 h k d) := by
  unfold k0_pay2
  show shapeCast S8x512x64
      (addf (mulf (broadcastTo S8x512x64 v22 broadcasts_S8x512x1_S8x512x64) v36)
        (matmul (F := Ideal) dot_S8x512x512_S8x512x64_S8x512x64_2_1_1_2_0_0 none (truncf FTy.bf16 v25 bitsLt_bf16_f32) v12
          (constant S8x512x64 FTy.f32 0x00000000#32)))
      shapeCasts_S8x512x64_S8x512x64 (ix3 h r d) = _
  have hb : broadcastTo S8x512x64 v22 broadcasts_S8x512x1_S8x512x64 (ix3 h r d) = v22 (ix3 h r 0) :=
    broadcastTo_apply v22 broadcasts_S8x512x1_S8x512x64 (ix3 h r d) (ix3 h r 0) (fun a => by
      match a with
      | ⟨0, _⟩ => rfl
      | ⟨1, _⟩ => rfl
      | ⟨2, _⟩ => rfl)
  rw [shapeCast_self, addf_apply, mulf_apply, matmulPV_apply, hb]
  rfl

/-! ## The product Q·Kᵀ: the operands' indices -/

theorem qk_lhs_0 (j : S8x512x512.Idx) (q : dot_S8x512x64_S8x512x64_S8x512x512_2_2_1_1_0_0.contr.Idx) : (dot_S8x512x64_S8x512x64_S8x512x512_2_2_1_1_0_0.lhsIdx j q 0).val = (j 0).val := by
  unfold DotDims.lhsIdx
  rw [dif_pos (show (0 : Fin S8x512x64.rank) ∈ dot_S8x512x64_S8x512x64_S8x512x512_2_2_1_1_0_0.lhsBatch by decide)]
  rfl
theorem qk_lhs_1 (j : S8x512x512.Idx) (q : dot_S8x512x64_S8x512x64_S8x512x512_2_2_1_1_0_0.contr.Idx) : (dot_S8x512x64_S8x512x64_S8x512x512_2_2_1_1_0_0.lhsIdx j q 1).val = (j 1).val := by
  unfold DotDims.lhsIdx
  rw [dif_neg (show ¬(1 : Fin S8x512x64.rank) ∈ dot_S8x512x64_S8x512x64_S8x512x512_2_2_1_1_0_0.lhsBatch by decide), dif_pos (show (1 : Fin S8x512x64.rank) ∈ dot_S8x512x64_S8x512x64_S8x512x512_2_2_1_1_0_0.lhsNonContracting by decide)]
  rfl
theorem qk_lhs_2 (j : S8x512x512.Idx) (q : dot_S8x512x64_S8x512x64_S8x512x512_2_2_1_1_0_0.contr.Idx) : (dot_S8x512x64_S8x512x64_S8x512x512_2_2_1_1_0_0.lhsIdx j q 2).val = (q ⟨0, by decide⟩).val :=
  dot_S8x512x64_S8x512x64_S8x512x512_2_2_1_1_0_0.lhsIdx_val_of_single rfl j q
theorem qk_rhs_0 (j : S8x512x512.Idx) (q : dot_S8x512x64_S8x512x64_S8x512x512_2_2_1_1_0_0.contr.Idx) : (dot_S8x512x64_S8x512x64_S8x512x512_2_2_1_1_0_0.rhsIdx j q 0).val = (j 0).val := by
  unfold DotDims.rhsIdx
  rw [dif_pos (show (0 : Fin S8x512x64.rank) ∈ dot_S8x512x64_S8x512x64_S8x512x512_2_2_1_1_0_0.rhsBatch by decide)]
  rfl
theorem qk_rhs_1 (j : S8x512x512.Idx) (q : dot_S8x512x64_S8x512x64_S8x512x512_2_2_1_1_0_0.contr.Idx) : (dot_S8x512x64_S8x512x64_S8x512x512_2_2_1_1_0_0.rhsIdx j q 1).val = (j 2).val := by
  unfold DotDims.rhsIdx
  rw [dif_neg (show ¬(1 : Fin S8x512x64.rank) ∈ dot_S8x512x64_S8x512x64_S8x512x512_2_2_1_1_0_0.rhsBatch by decide), dif_pos (show (1 : Fin S8x512x64.rank) ∈ dot_S8x512x64_S8x512x64_S8x512x512_2_2_1_1_0_0.rhsNonContracting by decide)]
  rfl
theorem qk_rhs_2 (j : S8x512x512.Idx) (q : dot_S8x512x64_S8x512x64_S8x512x512_2_2_1_1_0_0.contr.Idx) : (dot_S8x512x64_S8x512x64_S8x512x512_2_2_1_1_0_0.rhsIdx j q 2).val = (q ⟨0, by decide⟩).val :=
  dot_S8x512x64_S8x512x64_S8x512x512_2_2_1_1_0_0.rhsIdx_val_of_single rfl j q

/-- The product Q·Kᵀ of the kernel, batched over the heads and contracting the lane axis of both operands, read at
    (h, r, k): the sum over the lanes e of Q(h, r, e) · K(h, k, e). -/
theorem matmulQK_apply (Qh Kh : FVec Ideal S8x512x64 .bf16) (h : Fin 8) (r k : Fin 512) :
    matmul (F := Ideal) dot_S8x512x64_S8x512x64_S8x512x512_2_2_1_1_0_0 none Qh Kh (constant S8x512x512 .f32 0x00000000#32) (ix3 h r k)
      = ∑ e : Fin 64, Qh (ix3 h r e) * Kh (ix3 h k e) := by
  refine (Ideal.matmul_constant_zero_apply dot_S8x512x64_S8x512x64_S8x512x512_2_2_1_1_0_0 none Qh Kh (ix3 h r k)).trans ?_
  rw [← Equiv.sum_comp (contrEquiv1 dot_S8x512x64_S8x512x64_S8x512x512_2_2_1_1_0_0 64 rfl rfl).symm]
  refine Finset.sum_congr rfl fun e _ => ?_
  have he := contrEquiv1_symm_val dot_S8x512x64_S8x512x64_S8x512x512_2_2_1_1_0_0 64 rfl rfl e
  have el : dot_S8x512x64_S8x512x64_S8x512x512_2_2_1_1_0_0.lhsIdx (ix3 h r k) ((contrEquiv1 dot_S8x512x64_S8x512x64_S8x512x512_2_2_1_1_0_0 64 rfl rfl).symm e) = ix3 h r e :=
    funext fun a => Fin.ext (by
      match a with
      | ⟨0, _⟩ => exact qk_lhs_0 _ _
      | ⟨1, _⟩ => exact qk_lhs_1 _ _
      | ⟨2, _⟩ => exact (qk_lhs_2 _ _).trans he)
  have er : dot_S8x512x64_S8x512x64_S8x512x512_2_2_1_1_0_0.rhsIdx (ix3 h r k) ((contrEquiv1 dot_S8x512x64_S8x512x64_S8x512x512_2_2_1_1_0_0 64 rfl rfl).symm e) = ix3 h k e :=
    funext fun a => Fin.ext (by
      match a with
      | ⟨0, _⟩ => exact qk_rhs_0 _ _
      | ⟨1, _⟩ => exact qk_rhs_1 _ _
      | ⟨2, _⟩ => exact (qk_rhs_2 _ _).trans he)
  rw [el, er]

/-- The scores' payload is the product of the hoisted Q with the head split of the K block, times the scale. -/
theorem pay10_eq (x1 : Vec Ideal S1x512x512 .f32) (q : Vec Ideal S8x512x64 .bf16) :
    k0_pay10 (F := Ideal) x1 q
      = mulf (matmul (F := Ideal) (φ₁ := .bf16) (φ₂ := .bf16) dot_S8x512x64_S8x512x64_S8x512x512_2_2_1_1_0_0 none q (k0_pay9 (F := Ideal) x1) (constant S8x512x512 .f32 0x00000000#32))
          (broadcast S8x512x512 (Scalar.ofBits (F := Ideal) .f32 0x3E000000#32)) := rfl

/-- The scores read at (h, r, k): query row r against key row k in head h, scaled. -/
theorem pay10_apply (x1 : Vec Ideal S1x512x512 .f32) (q : Vec Ideal S8x512x64 .bf16) (h : Fin 8) (r k : Fin 512) :
    k0_pay10 (F := Ideal) x1 q (ix3 h r k) = (∑ e : Fin 64, q (ix3 h r e) * x1 (ix3 0 k (hcol h e))) * scale := by
  rw [pay10_eq, mulf_apply, matmulQK_apply, broadcast_apply]
  simp only [pay9_apply]
  rfl

end Cert.AttnKernel

end
-- ==== Proof.LibLayout3.lean ====
/-
  Rank-3 layout operations read at an index given by coordinates: a matrix cast to a stack of columns
  `[a, b] → [a, b, 1]` or of rows `[a, b] → [a, 1, b]`, and either broadcast along its unit axis to `[a, b, c]`; and a
  one-element vector cast to `[1, 1, 1]` and read at its one position. Each is the parent lemma of the value library
  with the per-axis arithmetic done.
-/
import Idealize.ShloMosaic.Lib.Pipeline.Value
import Idealize.ShloMosaic.Lib.ValueIdx
import Idealize.ShloMosaic.Lib.ValueLayout

namespace Cert.Layout3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, k)`, the operand at `(i, k)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- A stack of columns `[a, b, 1]` broadcast to `[a, b, c]` does not depend on the last coordinate. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A stack of rows `[a, 1, c]` broadcast to `[a, b, c]` does not depend on the middle coordinate. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A one-element vector cast to `[1, 1, 1]` and read at its one position is its element. -/
theorem extractAt_shapeCast_one (x : (⟨1, ![1]⟩ : Shape).Idx → α)
    (h : (⟨1, ![1]⟩ : Shape).ShapeCasts ⟨3, ![1, 1, 1]⟩)
    (hp : ∀ a, (![0, 0, 0] : Fin 3 → ℕ) a < (⟨3, ![1, 1, 1]⟩ : Shape).size a) :
    extractAt ![0, 0, 0] (shapeCast ⟨3, ![1, 1, 1]⟩ x h) hp = x (ix1 (0 : Fin 1)) := by
  unfold extractAt
  exact shapeCast_apply x h _ _ (by
    rw [Shape.rowMajor_val_three, Shape.rowMajor_val_one]
    rfl)

end Cert.Layout3
-- ==== Proof.PayStats.lean ====
/-
  The online-softmax statistics of one key tile, read at an index over the extended reals.

  The scores of the tile are an [8, 512, 512] array S (head, query row, key); the carried statistics are the columns
  m, l : [8, 512, 1]. For head h and query row r, with s k = S(h, r, k):

    new maximum     m' = max m (max over k of s k)               (the row maximum starts from −∞)
    rescaling       α  = exp (m − m')
    tile weights    p k = exp (s k − m')
    new sum         l' = α · l + ∑ k, p k

  Each is stated over the score array as a whole, which is not opened here.
-/
import proofs.«151038_j7224134991903_2_alg».proof.Proof.Gen.KernelIdeal.Frame
import proofs.«151038_j7224134991903_2_alg».proof.Proof.AttnSpec
import proofs.«151038_j7224134991903_2_alg».proof.Proof.LibLayout3
import Idealize.ShloMosaic.Lib.ValueIdx
import Idealize.ShloMosaic.Lib.Pipeline.Value
import Idealize.ShloMosaic.PureOps.Ideal.Laws

noncomputable section

namespace Cert.AttnKernel

open Cert.KernelIdeal Cert.KernelIdeal.Gen Cert.AttnSpec
open Idealize.ShloMosaic Idealize.ShloMosaic.ValueIdx Idealize.ShloMosaic.TcCoe Idealize.SL.Sem

/-- The exponential of a vector, read at an index. -/
theorem exp_apply {s : Shape} {φ : FTy} (a : FVec Ideal s φ) (i : s.Idx) : exp a i = Ideal.exp (a i) := rfl

/-- The word of −∞ is −∞. -/
theorem negInf_word_f32 : FloatOps.ofBits (F := Ideal) .f32 0xFF800000#32 = (⊥ : EReal) := by
  rw [Ideal.ofBits_def]; simp [Ideal.ofBits, Ideal.ieee]

/-- An [8, 512, 512] array reduced along its last axis: row (h, r) with key coordinate k inserted is (h, r, k). -/
theorem lift_keys (hr : S8x512x512.Reduces [2] S8x512) (h : Fin 8) (r k : Fin 512) :
    hr.lift (ix2 h r) k = ix3 h r k :=
  funext fun ax => Fin.ext (by match ax with | ⟨0, _⟩ => rfl | ⟨1, _⟩ => rfl | ⟨2, _⟩ => rfl)

/-- The row maximum, from −∞, of an [8, 512, 512] array along its last axis, stored as a column. -/
theorem rowMax_apply (src : FVec Ideal S8x512x512 .f32) (hr : S8x512x512.Reduces [2] S8x512)
    (hc : S8x512.ShapeCasts S8x512x1) (hφ : FKind.Formats .f32)
    (hacc : (0xFF800000#32 : BitVec 32) = FKind.maximumf.neutral .f32 hφ) (h : Fin 8) (r : Fin 512) :
    shapeCast S8x512x1 (multiReduction (F := Ideal) .maximumf [2] S8x512 src 0xFF800000#32 hr hφ hacc) hc (ix3 h r 0)
      = maxOf (fun k : Fin 512 => src (ix3 h r k)) := by
  refine (Cert.Layout3.shapeCast_ab_ab1_apply _ hc h r 0).trans ?_
  refine (Ideal.multiReduction_maximumf_single src _ hr hφ hacc (ix2 h r)).trans ?_
  unfold maxOf
  rw [negInf_word_f32]
  have e : (src ∘ hr.lift (ix2 h r)) = fun k : Fin 512 => src (ix3 h r k) :=
    funext fun k => congrArg src (lift_keys hr h r k)
  exact congrArg (Finset.fold max (⊥ : EReal) · (Finset.univ : Finset (Fin 512))) e

/-- The row sum of an [8, 512, 512] array along its last axis, stored as a column. -/
theorem rowSum_apply (src : FVec Ideal S8x512x512 .f32) (hr : S8x512x512.Reduces [2] S8x512)
    (hc : S8x512.ShapeCasts S8x512x1) (hφ : FKind.Formats .f32)
    (hacc : (0x00000000#32 : BitVec 32) = FKind.add.neutral .f32 hφ) (h : Fin 8) (r : Fin 512) :
    shapeCast S8x512x1 (multiReduction (F := Ideal) .add [2] S8x512 src 0x00000000#32 hr hφ hacc) hc (ix3 h r 0)
      = ∑ k : Fin 512, src (ix3 h r k) := by
  refine (Cert.Layout3.shapeCast_ab_ab1_apply _ hc h r 0).trans ?_
  refine (Ideal.multiReduction_add_single src _ hr hφ hacc (ix2 h r)).trans ?_
  exact Finset.sum_congr rfl fun k _ => congrArg src (lift_keys hr h r k)

theorem pay11_apply (x1 : Vec Ideal S1x512x512 .f32) (q : Vec Ideal S8x512x64 .bf16) (m : Vec Ideal S8x512x1 .f32) (h : Fin 8) (r : Fin 512) :
    k0_pay11 (F := Ideal) x1 q m (ix3 h r 0) = mNext (m (ix3 h r 0)) (fun k : Fin 512 => k0_pay10 (F := Ideal) x1 q (ix3 h r k)) := by
  unfold k0_pay11 mNext
  refine (maximumf_apply _ _ _).trans ?_
  exact congrArg (max (m (ix3 h r 0))) (rowMax_apply (k0_pay10 (F := Ideal) x1 q) _ _ _ _ h r)

theorem pay12_apply (x1 : Vec Ideal S1x512x512 .f32) (q : Vec Ideal S8x512x64 .bf16) (m : Vec Ideal S8x512x1 .f32) (h : Fin 8) (r : Fin 512) :
    k0_pay12 (F := Ideal) x1 q m (ix3 h r 0) = Ideal.exp (m (ix3 h r 0) - k0_pay11 (F := Ideal) x1 q m (ix3 h r 0)) := by
  unfold k0_pay12
  rfl

theorem pay13_apply (x1 : Vec Ideal S1x512x512 .f32) (q : Vec Ideal S8x512x64 .bf16) (m : Vec Ideal S8x512x1 .f32) (h : Fin 8) (r k : Fin 512) :
    k0_pay13 (F := Ideal) x1 q m (ix3 h r k) = Ideal.exp (k0_pay10 (F := Ideal) x1 q (ix3 h r k) - k0_pay11 (F := Ideal) x1 q m (ix3 h r 0)) := by
  unfold k0_pay13
  refine (exp_apply _ _).trans ?_
  refine congrArg Ideal.exp ?_
  refine (subf_apply _ _ _).trans ?_
  exact congrArg (k0_pay10 (F := Ideal) x1 q (ix3 h r k) - ·)
    (Cert.Layout3.broadcastTo_ab1_abc_apply (k0_pay11 (F := Ideal) x1 q m) _ h r k)

theorem pay14_apply (x1 : Vec Ideal S1x512x512 .f32) (q : Vec Ideal S8x512x64 .bf16) (m l : Vec Ideal S8x512x1 .f32) (h : Fin 8) (r : Fin 512) :
    k0_pay14 (F := Ideal) x1 q m l (ix3 h r 0)
      = lNext (m (ix3 h r 0)) (l (ix3 h r 0)) (fun k : Fin 512 => k0_pay10 (F := Ideal) x1 q (ix3 h r k)) := by
  unfold k0_pay14 lNext
  refine (addf_apply _ _ _).trans ?_
  refine congrArg₂ (· + ·) ?_ ?_
  · refine (mulf_apply _ _ _).trans ?_
    refine congrArg (· * l (ix3 h r 0)) ?_
    rw [pay12_apply, pay11_apply]
  · refine (rowSum_apply (k0_pay13 (F := Ideal) x1 q m) _ _ _ _ h r).trans ?_
    refine Finset.sum_congr rfl fun k _ => ?_
    rw [pay13_apply, pay11_apply]

end Cert.AttnKernel

end
-- ==== Proof.KernelStep.lean ====
/-
  One key tile's update of the carried statistics, in the specification's terms.

  At head h and query row r of the tile the body computes, from the running maximum m, the running sum l and the
  running weighted sums a(d) it finds, and from the tile's scores s k = (∑ e, q(h,r,e)·K(k,64h+e))·2⁻³:
      m' = max m (max_k s k),   l' = exp (m − m')·l + ∑ k, exp (s k − m'),   a'(d) = exp (m − m')·a(d) + ∑ k, exp (s k − m')·V(k,64h+d)
  — `mNext`, `lNext`, `aNext` of the specification. `Holds … n` says the four scratches hold, for every head and row
  of query tile (b, qi), the statistics accumulated over key tiles 0 … n and the head-split queries; the first key tile
  establishes it from −∞, 0, 0 (`holds_first`) and every later tile carries it on (`holds_next`).
-/
import proofs.«151038_j7224134991903_2_alg».proof.Proof.Gen.KernelIdeal.Frame
import proofs.«151038_j7224134991903_2_alg».proof.Proof.AttnSpec
import proofs.«151038_j7224134991903_2_alg».proof.Proof.KernelPieces
import proofs.«151038_j7224134991903_2_alg».proof.Proof.PayLayout
import proofs.«151038_j7224134991903_2_alg».proof.Proof.PayMatmul
import proofs.«151038_j7224134991903_2_alg».proof.Proof.PayStats
import Idealize.ShloMosaic.Lib.ValueIdx

noncomputable section

namespace Cert.AttnKernel

open Cert.KernelIdeal Cert.KernelIdeal.Gen Cert.AttnSpec
open Idealize.ShloMosaic Idealize.ShloMosaic.ValueIdx Idealize.ShloMosaic.TcCoe Idealize.SL.Sem

/-- The tile's scores at (h, r, k), when the hoisted queries are row n of Q head-split and the K block is tile τ. -/
theorem scores_apply (x1 : Vec Ideal S1x512x512 .f32) (q : Vec Ideal S8x512x64 .bf16) (h : Fin 8) (r : Fin 512)
    (Q K : Arr) (b : Fin 4) (n : Fin 2048) (τ : ℕ)
    (hq : ∀ e, q (ix3 h r e) = Q (ix3 b n (hcol h e)))
    (hx1 : ∀ k col, x1 (ix3 0 k col) = K (ix3 b (trowN τ k) col)) (k : Fin 512) :
    k0_pay10 (F := Ideal) x1 q (ix3 h r k) = tileS Q K b h n τ k := by
  rw [pay10_apply]
  unfold tileS score
  simp only [hq, hx1]

/-- The new running maximum at (h, r). -/
theorem mNew_apply (x1 : Vec Ideal S1x512x512 .f32) (q : Vec Ideal S8x512x64 .bf16) (mp : Vec Ideal S8x512x1 .f32) (h : Fin 8) (r : Fin 512) :
    k0_pay3 (F := Ideal) (k0_pay11 (F := Ideal) x1 q mp) (ix3 h r 0)
      = mNext (mp (ix3 h r 0)) (fun k : Fin 512 => k0_pay10 (F := Ideal) x1 q (ix3 h r k)) := by
  rw [pay3_eq, pay11_apply]

/-- The new running sum at (h, r). -/
theorem lNew_apply (x1 : Vec Ideal S1x512x512 .f32) (q : Vec Ideal S8x512x64 .bf16) (mp lp : Vec Ideal S8x512x1 .f32) (h : Fin 8) (r : Fin 512) :
    k0_pay1 (F := Ideal) (k0_pay14 (F := Ideal) x1 q mp lp) (ix3 h r 0)
      = lNext (mp (ix3 h r 0)) (lp (ix3 h r 0)) (fun k : Fin 512 => k0_pay10 (F := Ideal) x1 q (ix3 h r k)) := by
  rw [pay1_eq, pay14_apply]

/-- The new running weighted sum at (h, r, d). -/
theorem aNew_apply (x1 x2 : Vec Ideal S1x512x512 .f32) (q : Vec Ideal S8x512x64 .bf16) (mp : Vec Ideal S8x512x1 .f32)
    (ap : Vec Ideal S8x512x64 .f32) (h : Fin 8) (r : Fin 512) (d : Fin 64) :
    k0_pay2 (F := Ideal) (k0_pay9 (F := Ideal) x2) (k0_pay12 (F := Ideal) x1 q mp) (k0_pay13 (F := Ideal) x1 q mp) ap (ix3 h r d)
      = aNext (mp (ix3 h r 0)) (ap (ix3 h r d)) (fun k : Fin 512 => k0_pay10 (F := Ideal) x1 q (ix3 h r k))
          (fun k : Fin 512 => x2 (ix3 0 k (hcol h d))) := by
  rw [pay2_apply, pay12_apply, pay11_apply]
  unfold aNext
  simp only [pay13_apply, pay11_apply, pay9_apply]

/-- The scratches hold the statistics of query tile (b, qi) accumulated over key tiles 0 … n, and the head-split queries. -/
def Holds (Q K V : Arr) (b qi : Fin 4) (n : ℕ) (sm sl : Vec Ideal S8x512x1 .f32) (sa : Vec Ideal S8x512x64 .f32)
    (sq : Vec Ideal S8x512x64 .bf16) : Prop :=
  (∀ (h : Fin 8) (r : Fin 512), sm (ix3 h r 0) = onM (tileS Q K b h (trow qi r)) n)
  ∧ (∀ (h : Fin 8) (r : Fin 512), sl (ix3 h r 0) = onL (tileS Q K b h (trow qi r)) n)
  ∧ (∀ (h : Fin 8) (r : Fin 512) (d : Fin 64), sa (ix3 h r d) = onA (tileS Q K b h (trow qi r)) (tileV V b (hcol h d)) n)
  ∧ (∀ (h : Fin 8) (r : Fin 512) (e : Fin 64), sq (ix3 h r e) = Q (ix3 b (trow qi r) (hcol h e)))

/-- A later key tile carries the statistics on. -/
theorem holds_next (Q K V : Arr) (b qi : Fin 4) (n : ℕ) (sm sl : Vec Ideal S8x512x1 .f32) (sa : Vec Ideal S8x512x64 .f32)
    (sq : Vec Ideal S8x512x64 .bf16) (H : Holds Q K V b qi n sm sl sa sq) (x1 x2 : Vec Ideal S1x512x512 .f32)
    (hx1 : ∀ k col, x1 (ix3 0 k col) = K (ix3 b (trowN (n + 1) k) col))
    (hx2 : ∀ k col, x2 (ix3 0 k col) = V (ix3 b (trowN (n + 1) k) col)) :
    Holds Q K V b qi (n + 1) (k0_pay3 (F := Ideal) (k0_pay11 (F := Ideal) x1 sq sm)) (k0_pay1 (F := Ideal) (k0_pay14 (F := Ideal) x1 sq sm sl))
      (k0_pay2 (F := Ideal) (k0_pay9 (F := Ideal) x2) (k0_pay12 (F := Ideal) x1 sq sm) (k0_pay13 (F := Ideal) x1 sq sm) sa) sq := by
  obtain ⟨Hm, Hl, Ha, Hq⟩ := H
  have hs : ∀ (h : Fin 8) (r : Fin 512), (fun k : Fin 512 => k0_pay10 (F := Ideal) x1 sq (ix3 h r k)) = tileS Q K b h (trow qi r) (n + 1) :=
    fun h r => funext fun k => scores_apply x1 sq h r Q K b (trow qi r) (n + 1) (Hq h r) hx1 k
  refine ⟨fun h r => ?_, fun h r => ?_, fun h r d => ?_, Hq⟩
  · rw [mNew_apply, hs, Hm]; rfl
  · rw [lNew_apply, hs, Hm, Hl]; rfl
  · rw [aNew_apply, hs, Hm, Ha]
    have hv : (fun k : Fin 512 => x2 (ix3 0 k (hcol h d))) = tileV V b (hcol h d) (n + 1) := funext fun k => hx2 k (hcol h d)
    rw [hv]; rfl

/-- The first key tile establishes the statistics from −∞, 0 and 0, and the hoisted queries are the head-split block. -/
theorem holds_first (Q K V : Arr) (b qi : Fin 4) (x0 x1 x2 : Vec Ideal S1x512x512 .f32)
    (hx0 : ∀ r col, x0 (ix3 0 r col) = Q (ix3 b (trow qi r) col))
    (hx1 : ∀ k col, x1 (ix3 0 k col) = K (ix3 b (trowN 0 k) col))
    (hx2 : ∀ k col, x2 (ix3 0 k col) = V (ix3 b (trowN 0 k) col)) :
    Holds Q K V b qi 0 (k0_pay3 (F := Ideal) (k0_pay11 (F := Ideal) x1 (k0_pay8 (F := Ideal) x0) (k0_pay5 (F := Ideal))))
      (k0_pay1 (F := Ideal) (k0_pay14 (F := Ideal) x1 (k0_pay8 (F := Ideal) x0) (k0_pay5 (F := Ideal)) (k0_pay6 (F := Ideal))))
      (k0_pay2 (F := Ideal) (k0_pay9 (F := Ideal) x2) (k0_pay12 (F := Ideal) x1 (k0_pay8 (F := Ideal) x0) (k0_pay5 (F := Ideal)))
        (k0_pay13 (F := Ideal) x1 (k0_pay8 (F := Ideal) x0) (k0_pay5 (F := Ideal))) (k0_pay7 (F := Ideal)))
      (k0_pay8 (F := Ideal) x0) := by
  have Hq : ∀ (h : Fin 8) (r : Fin 512) (e : Fin 64), k0_pay8 (F := Ideal) x0 (ix3 h r e) = Q (ix3 b (trow qi r) (hcol h e)) :=
    fun h r e => (pay8_apply x0 h r e).trans (hx0 r (hcol h e))
  have hs : ∀ (h : Fin 8) (r : Fin 512), (fun k : Fin 512 => k0_pay10 (F := Ideal) x1 (k0_pay8 (F := Ideal) x0) (ix3 h r k)) = tileS Q K b h (trow qi r) 0 :=
    fun h r => funext fun k => scores_apply x1 (k0_pay8 (F := Ideal) x0) h r Q K b (trow qi r) 0 (Hq h r) hx1 k
  refine ⟨fun h r => ?_, fun h r => ?_, fun h r d => ?_, Hq⟩
  · rw [mNew_apply, hs, pay5_apply]; rfl
  · rw [lNew_apply, hs, pay5_apply, pay6_apply]; rfl
  · rw [aNew_apply, hs, pay5_apply, pay7_apply]
    have hv : (fun k : Fin 512 => x2 (ix3 0 k (hcol h d))) = tileV V b (hcol h d) 0 := funext fun k => hx2 k (hcol h d)
    rw [hv]; rfl

end Cert.AttnKernel

end
-- ==== Proof.KernelBlocks.lean ====
/-
  Where each window's block sits in its array. Point t of the 4×4×4 grid is batch t / 16, query tile t / 4 mod 4, key
  tile t mod 4. The Q window and the output window hold rows 512·(t/4 mod 4) … of batch t / 16; the K and V windows hold
  rows 512·(t mod 4) … of the same batch; every block spans all 512 columns.
-/
import proofs.«151038_j7224134991903_2_alg».proof.Proof.Gen.KernelIdeal.Value
import proofs.«151038_j7224134991903_2_alg».proof.Proof.AttnSpec
import Idealize.ShloMosaic.Lib.ValueIdx
import Idealize.ShloMosaic.Lib.Pipeline.Value

noncomputable section

namespace Cert.AttnKernel

open Cert.KernelIdeal Cert.KernelIdeal.Gen Cert.AttnSpec
open Idealize.ShloMosaic Idealize.ShloMosaic.ValueIdx Idealize.ShloMosaic.TcCoe Idealize.SL.Sem

variable (m : (ℓ : Loc nD τ sig) → Buf (Elt Ideal) ℓ)

/-- The three argument arrays as the region finds them. -/
abbrev argQ (c : Dev nD) : Arr := m ((c : Thread nD τ).loc main_arg0)
abbrev argK (c : Dev nD) : Arr := m ((c : Thread nD τ).loc main_arg1)
abbrev argV (c : Dev nD) : Arr := m ((c : Thread nD τ).loc main_arg2)

/-- The batch of point p. -/
def pb (p : ℕ) : Fin 4 := ⟨p / 16 % 4, Nat.mod_lt _ (by decide)⟩
/-- The query tile of point p. -/
def pq (p : ℕ) : Fin 4 := ⟨p / 4 % 4, Nat.mod_lt _ (by decide)⟩

/-- The printed index maps, decided once over the grid. -/
theorem idx_facts : ∀ t : Fin cfg0.N,
    win0_0.index t (0 : Fin 3) = t.val / 16 % 4 ∧ win0_0.index t (1 : Fin 3) = t.val / 4 % 4 ∧ win0_0.index t (2 : Fin 3) = 0
    ∧ win0_1.index t (0 : Fin 3) = t.val / 16 % 4 ∧ win0_1.index t (1 : Fin 3) = t.val % 4 ∧ win0_1.index t (2 : Fin 3) = 0
    ∧ win0_2.index t (0 : Fin 3) = t.val / 16 % 4 ∧ win0_2.index t (1 : Fin 3) = t.val % 4 ∧ win0_2.index t (2 : Fin 3) = 0
    ∧ win0_3.index t (0 : Fin 3) = t.val / 16 % 4 ∧ win0_3.index t (1 : Fin 3) = t.val / 4 % 4 ∧ win0_3.index t (2 : Fin 3) = 0 :=
  (by decide +kernel : ∀ t : Fin grid0.N, _)

/-- The Q block at point t. -/
theorem iblk0_apply (c : Dev nD) (t : Fin cfg0.N) (r col : Fin 512) :
    (iblk m c 0 t : Vec Ideal S1x512x512 .f32) (ix3 0 r col) = argQ m c (ix3 (pb t.val) (trow (pq t.val) r) col) := by
  obtain ⟨e0, e1, e2, -⟩ := idx_facts t
  unfold iblk
  rw [View.read_apply]
  show V m c main_arg0 _ = m ((c : Thread nD τ).loc main_arg0) _
  unfold V
  congr 1
  funext a
  apply Fin.ext
  match a with
  | ⟨0, _⟩ => show win0_0.index t (0 : Fin 3) * 1 + 1 * 0 = t.val / 16 % 4; rw [e0]; omega
  | ⟨1, _⟩ => show win0_0.index t (1 : Fin 3) * 512 + 1 * r.val = t.val / 4 % 4 * 512 + r.val; rw [e1]; omega
  | ⟨2, _⟩ => show win0_0.index t (2 : Fin 3) * 512 + 1 * col.val = col.val; rw [e2]; omega

/-- The K block at point t. -/
theorem iblk1_apply (c : Dev nD) (t : Fin cfg0.N) (k col : Fin 512) :
    (iblk m c 1 t : Vec Ideal S1x512x512 .f32) (ix3 0 k col) = argK m c (ix3 (pb t.val) (trowN (t.val % 4) k) col) := by
  obtain ⟨-, -, -, e0, e1, e2, -⟩ := idx_facts t
  unfold iblk
  rw [View.read_apply]
  show V m c main_arg1 _ = m ((c : Thread nD τ).loc main_arg1) _
  unfold V
  congr 1
  funext a
  apply Fin.ext
  match a with
  | ⟨0, _⟩ => show win0_1.index t (0 : Fin 3) * 1 + 1 * 0 = t.val / 16 % 4; rw [e0]; omega
  | ⟨1, _⟩ => show win0_1.index t (1 : Fin 3) * 512 + 1 * k.val = t.val % 4 % 4 * 512 + k.val; rw [e1]; omega
  | ⟨2, _⟩ => show win0_1.index t (2 : Fin 3) * 512 + 1 * col.val = col.val; rw [e2]; omega

/-- The V block at point t. -/
theorem iblk2_apply (c : Dev nD) (t : Fin cfg0.N) (k col : Fin 512) :
    (iblk m c 2 t : Vec Ideal S1x512x512 .f32) (ix3 0 k col) = argV m c (ix3 (pb t.val) (trowN (t.val % 4) k) col) := by
  obtain ⟨-, -, -, -, -, -, e0, e1, e2, -⟩ := idx_facts t
  unfold iblk
  rw [View.read_apply]
  show V m c main_arg2 _ = m ((c : Thread nD τ).loc main_arg2) _
  unfold V
  congr 1
  funext a
  apply Fin.ext
  match a with
  | ⟨0, _⟩ => show win0_2.index t (0 : Fin 3) * 1 + 1 * 0 = t.val / 16 % 4; rw [e0]; omega
  | ⟨1, _⟩ => show win0_2.index t (1 : Fin 3) * 512 + 1 * k.val = t.val % 4 % 4 * 512 + k.val; rw [e1]; omega
  | ⟨2, _⟩ => show win0_2.index t (2 : Fin 3) * 512 + 1 * col.val = col.val; rw [e2]; omega

end Cert.AttnKernel

end
-- ==== Proof.OnlineSoftmax.lean ====
/-
  The tile-by-tile (online) accumulation of one attention row equals the plain arrangement
  (softmax of the scores, then the weighted sum of the values), for real scores and values.

  For real scores σ t k and values ν t k (tile t, position k, every tile nonempty), after tiles 0 … n the
  running state is

      m = M,     l = ∑ t ≤ n, ∑ k, exp (σ t k − M),     a = ∑ t ≤ n, ∑ k, exp (σ t k − M) · ν t k

  for a real M (the maximum of the scores seen so far). A tile moves M to M' = max M (the tile's maximum), and
  exp (M − M') · exp (σ − M) = exp (σ − M') turns the old sums into sums against the new maximum. The running
  maximum is the maximum of the flattened scores, so a / l is the softmax row: both are
  (∑ exp (σ − M) · ν) / (∑ exp (σ − M)) over all keys, the denominator a positive real.
-/
import proofs.«151038_j7224134991903_2_alg».proof.Proof.AttnSpec
import Idealize.ShloMosaic.PureOps.Ideal
import Idealize.ShloMosaic.PureOps.Ideal.Laws

noncomputable section

namespace Cert.OnlineSoftmax

open Cert.AttnSpec
open Idealize.ShloMosaic Idealize.ShloMosaic.ValueIdx

/-! ## Coerced reals -/

/-- A finite sum of coerced reals is the coerced sum. -/
theorem coe_sum {ι : Type} (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The exponential of a difference of two reals. -/
theorem exp_coe_sub (a b : ℝ) :
    Ideal.exp ((a : EReal) - (b : EReal)) = ((Real.exp (a - b) : ℝ) : EReal) := by
  rw [← EReal.coe_sub, Ideal.exp_coe]

/-! ## The maximum from −∞ -/

/-- The maximum from −∞ is the supremum of the family. -/
theorem maxOf_eq_sup {N : ℕ} (S : Fin N → EReal) : maxOf S = Finset.univ.sup S := rfl

/-- The maximum of finitely many reals, at least one of them, is a real. -/
theorem maxOf_coe {W : ℕ} (hW : 0 < W) (f : Fin W → ℝ) :
    ∃ r : ℝ, maxOf (fun k => ((f k : ℝ) : EReal)) = (r : EReal) := by
  haveI : Nonempty (Fin W) := ⟨⟨0, hW⟩⟩
  obtain ⟨i, -, hi⟩ := Finset.exists_mem_eq_sup (Finset.univ : Finset (Fin W)) Finset.univ_nonempty
    (fun k => ((f k : ℝ) : EReal))
  exact ⟨f i, by rw [maxOf_eq_sup, hi]⟩

/-- The running maximum after tiles 0 … n is the supremum of the tile maxima. -/
theorem onM_eq_sup {W : ℕ} (S : ℕ → Fin W → EReal) (n : ℕ) :
    onM S n = (Finset.range (n + 1)).sup (fun t => maxOf (S t)) := by
  induction n with
  | zero => simp [onM, mNext]
  | succ n ih => rw [Finset.range_add_one, Finset.sup_insert, onM, mNext, ih, max_comm]

/-! ## One tile on a real state -/

/-- The running maximum after a tile of reals, from a real maximum, is a real. -/
theorem mNext_coe {W : ℕ} (hW : 0 < W) (M : ℝ) (f : Fin W → ℝ) :
    ∃ M' : ℝ, mNext (M : EReal) (fun k => ((f k : ℝ) : EReal)) = (M' : EReal) := by
  obtain ⟨r, hr⟩ := maxOf_coe hW f
  exact ⟨max M r, by rw [mNext, hr]; exact (EReal.coe_strictMono.monotone.map_max).symm⟩

/-- The running maximum after the first tile, from −∞, is a real. -/
theorem mNext_bot {W : ℕ} (hW : 0 < W) (f : Fin W → ℝ) :
    ∃ M' : ℝ, mNext ⊥ (fun k => ((f k : ℝ) : EReal)) = (M' : EReal) := by
  obtain ⟨r, hr⟩ := maxOf_coe hW f
  exact ⟨r, by rw [mNext, hr]; exact max_eq_right bot_le⟩

/-- The running sum after a tile, on a real state. -/
theorem lNext_coe {W : ℕ} (M M' L : ℝ) (f : Fin W → ℝ)
    (hM' : mNext (M : EReal) (fun k => ((f k : ℝ) : EReal)) = (M' : EReal)) :
    lNext (M : EReal) (L : EReal) (fun k => ((f k : ℝ) : EReal))
      = ((Real.exp (M - M') * L + ∑ k, Real.exp (f k - M') : ℝ) : EReal) := by
  rw [lNext, hM']
  simp only [exp_coe_sub]
  rw [coe_sum, ← EReal.coe_mul, ← EReal.coe_add]

/-- The running weighted sum after a tile, on a real state. -/
theorem aNext_coe {W : ℕ} (M M' A : ℝ) (f g : Fin W → ℝ)
    (hM' : mNext (M : EReal) (fun k => ((f k : ℝ) : EReal)) = (M' : EReal)) :
    aNext (M : EReal) (A : EReal) (fun k => ((f k : ℝ) : EReal)) (fun k => ((g k : ℝ) : EReal))
      = ((Real.exp (M - M') * A + ∑ k, Real.exp (f k - M') * g k : ℝ) : EReal) := by
  rw [aNext, hM']
  simp only [exp_coe_sub, ← EReal.coe_mul]
  rw [coe_sum, ← EReal.coe_add]

/-- The running sum after the first tile: the initial sum is 0, so only the tile's terms remain. -/
theorem lNext_bot {W : ℕ} (M' : ℝ) (f : Fin W → ℝ)
    (hM' : mNext ⊥ (fun k => ((f k : ℝ) : EReal)) = (M' : EReal)) :
    lNext ⊥ 0 (fun k => ((f k : ℝ) : EReal)) = ((∑ k, Real.exp (f k - M') : ℝ) : EReal) := by
  rw [lNext, hM', mul_zero, zero_add]
  simp only [exp_coe_sub]
  rw [coe_sum]

/-- The running weighted sum after the first tile. -/
theorem aNext_bot {W : ℕ} (M' : ℝ) (f g : Fin W → ℝ)
    (hM' : mNext ⊥ (fun k => ((f k : ℝ) : EReal)) = (M' : EReal)) :
    aNext ⊥ 0 (fun k => ((f k : ℝ) : EReal)) (fun k => ((g k : ℝ) : EReal))
      = ((∑ k, Real.exp (f k - M') * g k : ℝ) : EReal) := by
  rw [aNext, hM', mul_zero, zero_add]
  simp only [exp_coe_sub, ← EReal.coe_mul]
  rw [coe_sum]

/-- Moving the maximum from M to M': the old sums against M, rescaled by exp (M − M'), plus the new tile's
    terms against M', are the sums against M' over one more tile. -/
theorem rescale_sum {W : ℕ} (σ c : ℕ → Fin W → ℝ) (M M' : ℝ) (n : ℕ) :
    Real.exp (M - M') * (∑ t ∈ Finset.range (n + 1), ∑ k, Real.exp (σ t k - M) * c t k)
        + ∑ k, Real.exp (σ (n + 1) k - M') * c (n + 1) k
      = ∑ t ∈ Finset.range (n + 1 + 1), ∑ k, Real.exp (σ t k - M') * c t k := by
  rw [Finset.sum_range_succ _ (n + 1), Finset.mul_sum]
  congr 1
  refine Finset.sum_congr rfl fun t _ => ?_
  rw [Finset.mul_sum]
  refine Finset.sum_congr rfl fun k _ => ?_
  rw [← mul_assoc, ← Real.exp_add]
  congr 2
  ring

/-! ## The state after tiles 0 … n -/

/-- For real scores σ and values ν, after tiles 0 … n the running maximum is a real M and the two running sums
    are the sums, over all keys seen so far, of exp (σ − M) and of exp (σ − M) · ν. -/
theorem invariant {W : ℕ} (hW : 0 < W) (σ ν : ℕ → Fin W → ℝ) (n : ℕ) :
    ∃ M : ℝ,
      onM (fun t k => ((σ t k : ℝ) : EReal)) n = (M : EReal) ∧
      onL (fun t k => ((σ t k : ℝ) : EReal)) n
        = ((∑ t ∈ Finset.range (n + 1), ∑ k, Real.exp (σ t k - M) : ℝ) : EReal) ∧
      onA (fun t k => ((σ t k : ℝ) : EReal)) (fun t k => ((ν t k : ℝ) : EReal)) n
        = ((∑ t ∈ Finset.range (n + 1), ∑ k, Real.exp (σ t k - M) * ν t k : ℝ) : EReal) := by
  induction n with
  | zero =>
    obtain ⟨M', hM'⟩ := mNext_bot hW (σ 0)
    refine ⟨M', hM', ?_, ?_⟩
    · rw [Finset.sum_range_one]; exact lNext_bot M' (σ 0) hM'
    · rw [Finset.sum_range_one]; exact aNext_bot M' (σ 0) (ν 0) hM'
  | succ n ih =>
    obtain ⟨M, hM, hL, hA⟩ := ih
    obtain ⟨M', hM'⟩ := mNext_coe hW M (σ (n + 1))
    refine ⟨M', ?_, ?_, ?_⟩
    · rw [onM, hM]; exact hM'
    · rw [onL, hM, hL]
      have h := lNext_coe M M' (∑ t ∈ Finset.range (n + 1), ∑ k, Real.exp (σ t k - M)) (σ (n + 1)) hM'
      have e := rescale_sum σ (fun _ _ => 1) M M' n
      simp only [mul_one] at e
      rw [← e]; exact h
    · rw [onA, hM, hA]
      have h := aNext_coe M M' (∑ t ∈ Finset.range (n + 1), ∑ k, Real.exp (σ t k - M) * ν t k)
        (σ (n + 1)) (ν (n + 1)) hM'
      rw [← rescale_sum σ ν M M' n]; exact h

/-! ## Flattening the tiles -/

/-- The maximum of the flattened scores (key j in tile j / R at position j % R) is the supremum of the tile
    maxima. -/
theorem maxOf_flat {R T : ℕ} (hR : 0 < R) (N : ℕ) (hT : T = N * R) (S : ℕ → Fin R → EReal) :
    maxOf (fun j : Fin T => S (j.val / R) ⟨j.val % R, Nat.mod_lt _ hR⟩)
      = (Finset.range N).sup (fun t => maxOf (S t)) := by
  subst hT
  rw [maxOf_eq_sup]
  apply le_antisymm
  · refine Finset.sup_le fun j _ => ?_
    have hj : j.val / R ∈ Finset.range N :=
      Finset.mem_range.mpr (Nat.div_lt_of_lt_mul (j.isLt.trans_eq (Nat.mul_comm N R)))
    refine le_trans ?_ (Finset.le_sup (f := fun t => maxOf (S t)) hj)
    rw [maxOf_eq_sup]
    exact Finset.le_sup (f := S (j.val / R)) (Finset.mem_univ _)
  · refine Finset.sup_le fun t ht => ?_
    rw [maxOf_eq_sup]
    refine Finset.sup_le fun k _ => ?_
    have ht' : t + 1 ≤ N := Finset.mem_range.mp ht
    have hlt : k.val + R * t < N * R :=
      calc k.val + R * t < R + R * t := Nat.add_lt_add_right k.isLt _
        _ = (t + 1) * R := by ring
        _ ≤ N * R := Nat.mul_le_mul_right R ht'
    have h1 : (k.val + R * t) / R = t := by
      rw [Nat.add_mul_div_left _ _ hR, Nat.div_eq_of_lt k.isLt, Nat.zero_add]
    have h2 : (k.val + R * t) % R = k.val := by
      rw [Nat.add_mul_mod_self_left, Nat.mod_eq_of_lt k.isLt]
    have e : S ((k.val + R * t) / R) ⟨(k.val + R * t) % R, Nat.mod_lt _ hR⟩ = S t k :=
      congrArg₂ S h1 (Fin.ext h2)
    rw [← e]
    exact Finset.le_sup (f := fun j : Fin (N * R) => S (j.val / R) ⟨j.val % R, Nat.mod_lt _ hR⟩)
      (Finset.mem_univ ⟨k.val + R * t, hlt⟩)

/-- A sum over the flattened keys is the sum over tiles of the sums over positions. -/
theorem sum_flat {R T : ℕ} (hR : 0 < R) (N : ℕ) (hT : T = N * R) (g : ℕ → Fin R → ℝ) :
    ∑ j : Fin T, g (j.val / R) ⟨j.val % R, Nat.mod_lt _ hR⟩
      = ∑ t ∈ Finset.range N, ∑ k : Fin R, g t k := by
  subst hT
  calc ∑ j : Fin (N * R), g (j.val / R) ⟨j.val % R, Nat.mod_lt _ hR⟩
      = ∑ p : Fin N × Fin R, g p.1.val p.2 :=
        Fintype.sum_equiv finProdFinEquiv.symm _ _ (fun j => rfl)
    _ = ∑ t : Fin N, ∑ k : Fin R, g t.val k :=
        Fintype.sum_prod_type' (fun (t : Fin N) (k : Fin R) => g t.val k)
    _ = ∑ t ∈ Finset.range N, ∑ k : Fin R, g t k :=
        (Finset.sum_range (fun t => ∑ k : Fin R, g t k)).symm

/-! ## The softmax row on reals -/

/-- The softmax row of real scores f against real values g, M the maximum of the scores: the weighted sum over
    the sum of the weights exp (f − M), a positive real. -/
theorem softmaxRow_coe {N : ℕ} (hN : 0 < N) (f g : Fin N → ℝ) (M : ℝ)
    (hM : maxOf (fun j => ((f j : ℝ) : EReal)) = (M : EReal)) :
    softmaxRow (fun j => ((f j : ℝ) : EReal)) (fun j => ((g j : ℝ) : EReal))
      = (((∑ j, Real.exp (f j - M) * g j) / (∑ j, Real.exp (f j - M)) : ℝ) : EReal) := by
  haveI : Nonempty (Fin N) := ⟨⟨0, hN⟩⟩
  have hpos : 0 < ∑ j, Real.exp (f j - M) :=
    Finset.sum_pos (fun j _ => Real.exp_pos _) Finset.univ_nonempty
  rw [softmaxRow, hM]
  simp only [exp_coe_sub]
  rw [coe_sum]
  simp only [Ideal.div_coe hpos.ne', ← EReal.coe_mul]
  rw [coe_sum]
  congr 1
  rw [Finset.sum_div]
  refine Finset.sum_congr rfl fun j _ => ?_
  ring

/-! ## The two arrangements agree -/

/-- On real scores σ and values ν in tiles of width R > 0: the quotient a / l after tiles 0 … n is the softmax
    row of the (n + 1) · R flattened keys. -/
theorem online_eq_softmaxRow_coe {R T : ℕ} (hR : 0 < R) (n : ℕ) (hT : T = (n + 1) * R) (σ ν : ℕ → Fin R → ℝ) :
    Ideal.div (onA (fun t k => ((σ t k : ℝ) : EReal)) (fun t k => ((ν t k : ℝ) : EReal)) n)
        (onL (fun t k => ((σ t k : ℝ) : EReal)) n)
      = softmaxRow (fun j : Fin T => ((σ (j.val / R) ⟨j.val % R, Nat.mod_lt _ hR⟩ : ℝ) : EReal))
                   (fun j : Fin T => ((ν (j.val / R) ⟨j.val % R, Nat.mod_lt _ hR⟩ : ℝ) : EReal)) := by
  obtain ⟨M, hM, hL, hA⟩ := invariant hR σ ν n
  have hT0 : 0 < T := by rw [hT]; exact Nat.mul_pos (Nat.succ_pos n) hR
  -- the maximum of the flattened scores is the running maximum
  have hmax : maxOf (fun j : Fin T => ((σ (j.val / R) ⟨j.val % R, Nat.mod_lt _ hR⟩ : ℝ) : EReal)) = (M : EReal) := by
    rw [← hM, onM_eq_sup]
    exact maxOf_flat hR (n + 1) hT (fun t k => ((σ t k : ℝ) : EReal))
  rw [softmaxRow_coe hT0 _ _ M hmax, hA, hL]
  -- the sum of the weights is positive
  haveI : Nonempty (Fin R) := ⟨⟨0, hR⟩⟩
  have hpos : 0 < ∑ t ∈ Finset.range (n + 1), ∑ k : Fin R, Real.exp (σ t k - M) :=
    Finset.sum_pos (fun t _ => Finset.sum_pos (fun k _ => Real.exp_pos _) Finset.univ_nonempty)
      Finset.nonempty_range_add_one
  rw [Ideal.div_coe hpos.ne', ← EReal.coe_mul]
  congr 1
  rw [sum_flat hR (n + 1) hT (fun t k => Real.exp (σ t k - M) * ν t k),
    sum_flat hR (n + 1) hT (fun t k => Real.exp (σ t k - M))]
  ring

/-- The online accumulation over four tiles of 512 keys, divided out, is the softmax row over the 2048 keys. -/
theorem online_eq_softmaxRow (s v : ℕ → Fin 512 → EReal)
    (hs : ∀ n k, ∃ r : ℝ, s n k = (r : EReal)) (hv : ∀ n k, ∃ r : ℝ, v n k = (r : EReal)) :
    Ideal.div (onA s v 3) (onL s 3)
      = softmaxRow (fun j : Fin 2048 => s (j.val / 512) ⟨j.val % 512, Nat.mod_lt _ (by decide)⟩)
                   (fun j : Fin 2048 => v (j.val / 512) ⟨j.val % 512, Nat.mod_lt _ (by decide)⟩) := by
  choose σ hσ using hs
  choose ν hν using hv
  have hs' : s = fun t k => ((σ t k : ℝ) : EReal) := funext fun t => funext fun k => hσ t k
  have hv' : v = fun t k => ((ν t k : ℝ) : EReal) := funext fun t => funext fun k => hν t k
  rw [hs', hv']
  exact online_eq_softmaxRow_coe (R := 512) (T := 2048) (by decide) 3 (by norm_num) σ ν

/-! ## The scale and the scores -/

/-- The scale word is 2⁻³. -/
theorem scale_eq : scale = (((1 / 8 : ℝ)) : EReal) := by
  simp [scale, Ideal.ofBits, Ideal.ieee, -EReal.coe_mul]; norm_num

/-- The score of real queries against real keys is a real. -/
theorem score_real (Q K : Arr) (hQ : ∀ i, ∃ r : ℝ, Q i = (r : EReal)) (hK : ∀ i, ∃ r : ℝ, K i = (r : EReal))
    (b : Fin 4) (h : Fin 8) (n j : Fin 2048) : ∃ r : ℝ, score Q K b h n j = (r : EReal) := by
  choose q hq using hQ
  choose k hk using hK
  refine ⟨(∑ e : Fin 64, q (ix3 b n (hcol h e)) * k (ix3 b j (hcol h e))) * (1 / 8), ?_⟩
  rw [score, scale_eq]
  simp only [hq, hk, ← EReal.coe_mul]
  rw [coe_sum, ← EReal.coe_mul]

end Cert.OnlineSoftmax

end
-- ==== Proof.KernelInvariant.lean ====
/-
  The carried statistics after every grid point, and the block the last key tile writes.

  By induction on the point number: a point with key tile 0 resets the scratches and establishes the statistics of its
  query tile over key tile 0; every other point finds the statistics over key tiles 0 … ki − 1 of the SAME query tile
  (its predecessor has the same batch and query tile) and carries them on over key tile ki. At a point with key tile 3
  the body divides the weighted sums by the sum of exponentials; for real inputs this quotient of sums accumulated
  tile by tile is the softmax row in the reference's arrangement, i.e. the attention value.
-/
import proofs.«151038_j7224134991903_2_alg».proof.Proof.KernelStep
import proofs.«151038_j7224134991903_2_alg».proof.Proof.KernelBlocks
import proofs.«151038_j7224134991903_2_alg».proof.Proof.OnlineSoftmax

noncomputable section

namespace Cert.AttnKernel

open Cert.KernelIdeal Cert.KernelIdeal.Gen Cert.AttnSpec
open Idealize.ShloMosaic Idealize.ShloMosaic.ValueIdx Idealize.ShloMosaic.TcCoe Idealize.SL.Sem

/-- `Holds` along equal batch, query tile and tile count. -/
theorem Holds.of_eq {Q K V : Arr} {b b' qi qi' : Fin 4} {n n' : ℕ} {sm sl : Vec Ideal S8x512x1 .f32} {sa : Vec Ideal S8x512x64 .f32}
    {sq : Vec Ideal S8x512x64 .bf16} (eb : b' = b) (eq : qi' = qi) (en : n' = n) (H : Holds Q K V b qi n sm sl sa sq) :
    Holds Q K V b' qi' n' sm sl sa sq := by
  subst eb; subst eq; subst en; exact H

variable (m : (ℓ : Loc nD τ sig) → Buf (Elt Ideal) ℓ)

/-- After point n the scratches hold the statistics of its query tile over key tiles 0 … n mod 4. -/
theorem inv (c : Dev nD) : ∀ (n : ℕ) (hn : n < cfg0.N),
    Holds (argQ m c) (argK m c) (argV m c) (pb n) (pq n) (n % 4)
      (outsAt0 m c n hn).2.1 (outsAt0 m c n hn).2.2.1 (outsAt0 m c n hn).2.2.2.1 (outsAt0 m c n hn).2.2.2.2
  | 0, hn => by
    rw [outsAt0_A m c ⟨0, hn⟩ (Nat.zero_mod 4) (by dsimp only; omega)]
    dsimp only
    rw [sout_A_0, sout_A_1, sout_A_2, sout_A_3]
    exact holds_first _ _ _ (pb 0) (pq 0) _ _ _ (fun r col => iblk0_apply m c ⟨0, hn⟩ r col)
      (fun k col => iblk1_apply m c ⟨0, hn⟩ k col) (fun k col => iblk2_apply m c ⟨0, hn⟩ k col)
  | n + 1, hn => by
    have hN : n + 1 < 64 := lt_of_lt_of_eq hn (show cfg0.N = 64 from N_0)
    by_cases h0 : (n + 1) % 4 = 0
    · have h1 : ¬(n + 1) % 4 = 3 := by omega
      rw [outsAt0_A m c ⟨n + 1, hn⟩ h0 h1]
      dsimp only
      rw [sout_A_0, sout_A_1, sout_A_2, sout_A_3]
      refine Holds.of_eq rfl rfl h0 ?_
      refine holds_first _ _ _ (pb (n + 1)) (pq (n + 1)) _ _ _ (fun r col => iblk0_apply m c ⟨n + 1, hn⟩ r col)
        (fun k col => ?_) (fun k col => ?_)
      · have := iblk1_apply m c ⟨n + 1, hn⟩ k col
        rw [show (⟨n + 1, hn⟩ : Fin cfg0.N).val % 4 = 0 from h0] at this
        exact this
      · have := iblk2_apply m c ⟨n + 1, hn⟩ k col
        rw [show (⟨n + 1, hn⟩ : Fin cfg0.N).val % 4 = 0 from h0] at this
        exact this
    · have IH := inv c n (Nat.lt_of_succ_lt hn)
      have eb : pb (n + 1) = pb n := Fin.ext (by show (n + 1) / 16 % 4 = n / 16 % 4; omega)
      have eq : pq (n + 1) = pq n := Fin.ext (by show (n + 1) / 4 % 4 = n / 4 % 4; omega)
      have en : (n + 1) % 4 = n % 4 + 1 := by omega
      have hx1 : ∀ k col, (iblk m c 1 ⟨n + 1, hn⟩ : Vec Ideal S1x512x512 .f32) (ix3 0 k col)
          = argK m c (ix3 (pb n) (trowN (n % 4 + 1) k) col) := fun k col => by
        have := iblk1_apply m c ⟨n + 1, hn⟩ k col
        rw [show (⟨n + 1, hn⟩ : Fin cfg0.N).val = n + 1 from rfl, eb, en] at this
        exact this
      have hx2 : ∀ k col, (iblk m c 2 ⟨n + 1, hn⟩ : Vec Ideal S1x512x512 .f32) (ix3 0 k col)
          = argV m c (ix3 (pb n) (trowN (n % 4 + 1) k) col) := fun k col => by
        have := iblk2_apply m c ⟨n + 1, hn⟩ k col
        rw [show (⟨n + 1, hn⟩ : Fin cfg0.N).val = n + 1 from rfl, eb, en] at this
        exact this
      by_cases h1 : (n + 1) % 4 = 3
      · rw [outsAt0_C m c ⟨n + 1, hn⟩ h0 h1]
        dsimp only
        rw [sout_C_0, sout_C_1, sout_C_2]
        unfold sout0_C_3
        refine Holds.of_eq eb eq en ?_
        exact holds_next _ _ _ (pb n) (pq n) (n % 4) _ _ _ _ IH _ _ hx1 hx2
      · rw [outsAt0_B m c ⟨n + 1, hn⟩ h0 h1]
        dsimp only
        rw [sout_B_0, sout_B_1, sout_B_2]
        unfold sout0_B_3
        refine Holds.of_eq eb eq en ?_
        exact holds_next _ _ _ (pb n) (pq n) (n % 4) _ _ _ _ IH _ _ hx1 hx2

/-- What a point with key tile 3 leaves in the output's staging buffer, for real inputs: its block of the attention values. -/
theorem out_block (c : Dev nD) (hQ : ∀ i, ∃ r : ℝ, argQ m c i = (r : EReal)) (hK : ∀ i, ∃ r : ℝ, argK m c i = (r : EReal))
    (hV : ∀ i, ∃ r : ℝ, argV m c i = (r : EReal)) (t : Fin cfg0.N) (h3 : t.val % 4 = 3) (r col : Fin 512) :
    ((outsAt0 m c t.val t.isLt).1 : Vec Ideal S1x512x512 .f32) (ix3 0 r col)
      = attn (argQ m c) (argK m c) (argV m c) (ix3 (pb t.val) (trow (pq t.val) r) col) := by
  obtain ⟨n, hn⟩ := t
  cases n with
  | zero => exact absurd (show (0 : ℕ) % 4 = 3 from h3) (by decide)
  | succ n =>
    have hN : n + 1 < 64 := lt_of_lt_of_eq hn (show cfg0.N = 64 from N_0)
    have h3' : (n + 1) % 4 = 3 := h3
    have h0 : ¬(n + 1) % 4 = 0 := by omega
    have IH := inv m c n (Nat.lt_of_succ_lt hn)
    have eb : pb (n + 1) = pb n := Fin.ext (by show (n + 1) / 16 % 4 = n / 16 % 4; omega)
    have eq : pq (n + 1) = pq n := Fin.ext (by show (n + 1) / 4 % 4 = n / 4 % 4; omega)
    have en : (n + 1) % 4 = n % 4 + 1 := by omega
    have e3 : n % 4 + 1 = 3 := by omega
    have hx1 : ∀ k col, (iblk m c 1 ⟨n + 1, hn⟩ : Vec Ideal S1x512x512 .f32) (ix3 0 k col)
        = argK m c (ix3 (pb n) (trowN (n % 4 + 1) k) col) := fun k col => by
      have := iblk1_apply m c ⟨n + 1, hn⟩ k col
      rw [show (⟨n + 1, hn⟩ : Fin cfg0.N).val = n + 1 from rfl, eb, en] at this
      exact this
    have hx2 : ∀ k col, (iblk m c 2 ⟨n + 1, hn⟩ : Vec Ideal S1x512x512 .f32) (ix3 0 k col)
        = argV m c (ix3 (pb n) (trowN (n % 4 + 1) k) col) := fun k col => by
      have := iblk2_apply m c ⟨n + 1, hn⟩ k col
      rw [show (⟨n + 1, hn⟩ : Fin cfg0.N).val = n + 1 from rfl, eb, en] at this
      exact this
    have HN := holds_next _ _ _ (pb n) (pq n) (n % 4) _ _ _ _ IH _ _ hx1 hx2
    obtain ⟨h, d, rfl⟩ : ∃ (h : Fin 8) (d : Fin 64), col = hcol h d :=
      ⟨headOf col, ⟨col.val % 64, Nat.mod_lt _ (by decide)⟩, Fin.ext (by show col.val = col.val / 64 * 64 + col.val % 64; omega)⟩
    have hh : headOf (hcol h d) = h := Fin.ext (by show (h.val * 64 + d.val) / 64 = h.val; have := d.isLt; omega)
    have hj : ∀ j : Fin 2048, trowN (j.val / 512) ⟨j.val % 512, Nat.mod_lt _ (by decide)⟩ = j :=
      fun j => Fin.ext (by show j.val / 512 % 4 * 512 + j.val % 512 = j.val; have := j.isLt; omega)
    have hs : ∀ n' k, ∃ x : ℝ, tileS (argQ m c) (argK m c) (pb n) h (trow (pq n) r) n' k = (x : EReal) :=
      fun n' k => Cert.OnlineSoftmax.score_real _ _ hQ hK _ _ _ _
    have hv : ∀ n' k, ∃ x : ℝ, tileV (argV m c) (pb n) (hcol h d) n' k = (x : EReal) := fun n' k => hV _
    rw [outsAt0_C m c ⟨n + 1, hn⟩ h0 h3']
    dsimp only
    simp only [Nat.add_sub_cancel]
    rw [out_C_3, pay4_apply, HN.2.2.1 h r d, HN.2.1 h r, e3, eb, eq, Cert.OnlineSoftmax.online_eq_softmaxRow _ _ hs hv]
    show _ = softmaxRow (fun j => score (argQ m c) (argK m c) (pb n) (headOf (hcol h d)) (trow (pq n) r) j)
      (fun j => argV m c (ix3 (pb n) j (hcol h d)))
    rw [hh]
    simp only [tileS, tileV, hj]

end Cert.AttnKernel

end
-- ==== Proof.KernelArray.lean ====
/-
  From blocks to the array. Only the points with key tile 3 write the output window back (one per batch and query
  tile); what such a point writes is rows 512·qi … 512·qi + 511 of batch b of the attention values, and these sixteen
  blocks tile the [4, 2048, 512] array. So after the run the result array holds the attention function of the three
  argument arrays, provided their entries are real.
-/
import proofs.«151038_j7224134991903_2_alg».proof.Proof.KernelInvariant
import Idealize.ShloMosaic.Lib.Pipeline.Value

noncomputable section

namespace Cert.AttnKernel

open Cert.KernelIdeal Cert.KernelIdeal.Gen Cert.AttnSpec
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- What a flushing point writes back is its block of the attention values. -/
theorem flushed_eq (c : Dev nD) (hQ : ∀ i, ∃ r : ℝ, argQ m c i = (r : EReal)) (hK : ∀ i, ∃ r : ℝ, argK m c i = (r : EReal))
    (hV : ∀ i, ∃ r : ℝ, argV m c i = (r : EReal)) (t : Fin cfg0.N) (hf : (cfg0.win 3).flush t = true) :
    (dats m 0 c).flushed 3 t = ((cfg0.win 3).blk t).view.read (Elt Ideal) (attn (argQ m c) (argK m c) (argV m c)) := by
  have h3 : t.val % 4 = 3 := (flush0_3 t).mp hf
  obtain ⟨-, -, -, -, -, -, -, -, -, e0, e1, e2⟩ := idx_facts t
  rw [Cert.KernelIdeal.Value.flushed3]
  funext j
  obtain ⟨z, r, col, rfl⟩ : ∃ (z : Fin 1) (r col : Fin 512), j = ix3 z r col := ⟨j 0, j 1, j 2, eq_ix3 (n0 := 1) (n1 := 512) (n2 := 512) j⟩
  obtain rfl : z = 0 := Subsingleton.elim _ _
  show ((outsAt0 m c t.val t.isLt).1 : Vec Ideal S1x512x512 .f32) (ix3 0 r col)
    = attn (argQ m c) (argK m c) (argV m c) (((cfg0.win 3).blk t).view.emb (ix3 0 r col))
  rw [out_block m c hQ hK hV t h3 r col]
  congr 1
  funext a
  apply Fin.ext
  match a with
  | ⟨0, _⟩ => show t.val / 16 % 4 = win0_3.index t (0 : Fin 3) * 1 + 1 * 0; rw [e0]; omega
  | ⟨1, _⟩ => show t.val / 4 % 4 * 512 + r.val = win0_3.index t (1 : Fin 3) * 512 + 1 * r.val; rw [e1]; omega
  | ⟨2, _⟩ => show col.val = win0_3.index t (2 : Fin 3) * 512 + 1 * col.val; rw [e2]; omega

/-- An index of the array is in point t's block iff each coordinate is in the block's range on its axis. -/
theorem mem_blk (t : Fin cfg0.N) (i : S4x2048x512.Idx) :
    i ∈ ((cfg0.win 3).blk t).view.set ↔ ∀ a : Fin 3, win0_3.index t a * S1x512x512.size a ≤ (i a).val
      ∧ (i a).val < win0_3.index t a * S1x512x512.size a + S1x512x512.size a := by
  show i ∈ ((View.whole main_v0).slice (win0_3.rect t)).set ↔ _
  rw [View.set_slice_whole, Rect.mem_set_unit]
  exact Iff.rfl

/-- Every index of the array is in the block of the flushing point of its batch and query tile. -/
theorem cover (i : S4x2048x512.Idx) : ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 512 := (i 2).isLt
  obtain ⟨tv, htv⟩ : ∃ tv : ℕ, tv = ((i 0).val * 4 + (i 1).val / 512) * 4 + 3 := ⟨_, rfl⟩
  have hlt : tv < cfg0.N := by rw [show cfg0.N = 64 from N_0]; omega
  refine ⟨⟨tv, hlt⟩, (flush0_3 _).mpr (by show tv % 4 = 3; omega), ?_⟩
  obtain ⟨-, -, -, -, -, -, -, -, -, e0, e1, e2⟩ := idx_facts ⟨tv, hlt⟩
  have e0' : win0_3.index ⟨tv, hlt⟩ (0 : Fin 3) = tv / 16 % 4 := e0
  have e1' : win0_3.index ⟨tv, hlt⟩ (1 : Fin 3) = tv / 4 % 4 := e1
  have e2' : win0_3.index ⟨tv, hlt⟩ (2 : Fin 3) = 0 := e2
  rw [mem_blk]
  intro a
  match a with
  | ⟨0, _⟩ =>
    show win0_3.index ⟨tv, hlt⟩ (0 : Fin 3) * 1 ≤ (i 0).val ∧ (i 0).val < win0_3.index ⟨tv, hlt⟩ (0 : Fin 3) * 1 + 1
    rw [e0']; omega
  | ⟨1, _⟩ =>
    show win0_3.index ⟨tv, hlt⟩ (1 : Fin 3) * 512 ≤ (i 1).val ∧ (i 1).val < win0_3.index ⟨tv, hlt⟩ (1 : Fin 3) * 512 + 512
    rw [e1']; omega
  | ⟨2, _⟩ =>
    show win0_3.index ⟨tv, hlt⟩ (2 : Fin 3) * 512 ≤ (i 2).val ∧ (i 2).val < win0_3.index ⟨tv, hlt⟩ (2 : Fin 3) * 512 + 512
    rw [e2']; omega

/-- After the run the result array holds the attention values. -/
theorem final (c : Dev nD) (hQ : ∀ i, ∃ r : ℝ, argQ m c i = (r : EReal)) (hK : ∀ i, ∃ r : ℝ, argK m c i = (r : EReal))
    (hV : ∀ i, ∃ r : ℝ, argV m c i = (r : EReal)) :
    (dats m 0 c).arrAt 3 cfg0.N = attn (argQ m c) (argK m c) (argV m c) :=
  (dats m 0 c).arrAt_eq_of_cover 3 (attn (argQ m c) (argK m c) (argV m c)) (fun t hf => flushed_eq m c hQ hK hV t hf) cover

/-- The kernel's run, read: for real inputs the result array ends at the attention values and the arguments are unchanged. -/
theorem run (hreal : ∀ c : Dev nD, (∀ i, ∃ r : ℝ, argQ m c i = (r : EReal)) ∧ (∀ i, ∃ r : ℝ, argK m c i = (r : EReal))
      ∧ (∀ i, ∃ r : ℝ, argV m c i = (r : EReal))) :
    θ_run defs (onTc (τ := τ) (main (F := Ideal))) ⟨m, fun _ => 0, ρ⟩ fun r => ∀ c : Dev nD,
      r.2.mem ((c : Thread nD τ).loc main_v0) = attn (argQ m c) (argK m c) (argV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hreal c).1 (hreal c).2.1 (hreal c).2.2), (h c).2⟩)
    (Cert.KernelIdeal.Value.run_blocks m ρ)

end Cert.AttnKernel

end
-- ==== Proof.RefAttn.lean ====
/-
  The reference program, read index by index, is the specification `attn`.

  The program splits each 512-wide row into eight heads of width 64 (a reshape to [4, 2048, 8, 64] and an exchange of
  the two middle axes), multiplies queries against keys over the 64 lanes of a head, scales by 2⁻³, takes along the key
  axis the maximum from −∞ and the sum from 0 of the exponentials of the scores less that maximum, divides, multiplies
  the weights against the values over the 2048 key rows, and merges the heads back. Each stage is read below at
  coordinates (batch, head, row, key or lane); the composed index arithmetic is the division of a column `c` into
  head `c / 64` and lane `c % 64`, with `64 · (c / 64) + c % 64 = c`.
-/
import proofs.«151038_j7224134991903_2_alg».proof.Proof.Gen.ReferenceIdeal.Read
import proofs.«151038_j7224134991903_2_alg».proof.Proof.AttnSpec
import Idealize.ShloMosaic.Lib.ValueIdx
import Idealize.ShloMosaic.Lib.Pipeline.Value
import Idealize.ShloMosaic.PureOps.Ideal.Laws

noncomputable section

namespace Cert.AttnRef

open Cert.ReferenceIdeal Cert.ReferenceIdeal.Gen Cert.ReferenceIdeal.Read Cert.AttnSpec
open Idealize.ShloMosaic Idealize.ShloMosaic.ValueIdx Idealize.ShloMosaic.TcCoe Idealize.SL.Sem

/-- Lane `c % 64` of column `c`. -/
def laneOf (c : Fin 512) : Fin 64 := ⟨c.val % 64, Nat.mod_lt _ (by decide)⟩

/-- A column is lane `c % 64` of head `c / 64`. -/
theorem hcol_headOf_laneOf (c : Fin 512) : hcol (headOf c) (laneOf c) = c :=
  Fin.ext (by show c.val / 64 * 64 + c.val % 64 = c.val; omega)

/-- The head split of one argument: the reshape to [4, 2048, 8, 64] followed by the exchange of the two middle axes
    reads the argument at row `n`, column `64·h + e`. -/
theorem split0_apply (x : (⟨S4x2048x512, .f32⟩ : BufTy).Contents (Elt Ideal)) (b : Fin 4) (h : Fin 8) (n : Fin 2048) (e : Fin 64) :
    val_main_v1 (F := Ideal) x (ix4 b h n e) = x (ix3 b n (hcol h e)) := by
  rw [val_main_v1_apply, val_main_v0_apply]
  refine congrArg x (funext fun a => Fin.ext ?_)
  have hb := b.isLt; have hh := h.isLt; have hn := n.isLt; have he := e.isLt
  match a with
  | ⟨0, _⟩ => show (((b.val * 2048 + n.val) * 8 + h.val) * 64 + e.val) / 1048576 = b.val; omega
  | ⟨1, _⟩ => show (((b.val * 2048 + n.val) * 8 + h.val) * 64 + e.val) / 512 % 2048 = n.val; omega
  | ⟨2, _⟩ => show (((b.val * 2048 + n.val) * 8 + h.val) * 64 + e.val) % 512 = h.val * 64 + e.val; omega

theorem split1_apply (x : (⟨S4x2048x512, .f32⟩ : BufTy).Contents (Elt Ideal)) (b : Fin 4) (h : Fin 8) (n : Fin 2048) (e : Fin 64) :
    val_main_v3 (F := Ideal) x (ix4 b h n e) = x (ix3 b n (hcol h e)) := by
  rw [val_main_v3_apply, val_main_v2_apply]
  refine congrArg x (funext fun a => Fin.ext ?_)
  have hb := b.isLt; have hh := h.isLt; have hn := n.isLt; have he := e.isLt
  match a with
  | ⟨0, _⟩ => show (((b.val * 2048 + n.val) * 8 + h.val) * 64 + e.val) / 1048576 = b.val; omega
  | ⟨1, _⟩ => show (((b.val * 2048 + n.val) * 8 + h.val) * 64 + e.val) / 512 % 2048 = n.val; omega
  | ⟨2, _⟩ => show (((b.val * 2048 + n.val) * 8 + h.val) * 64 + e.val) % 512 = h.val * 64 + e.val; omega

theorem split2_apply (x : (⟨S4x2048x512, .f32⟩ : BufTy).Contents (Elt Ideal)) (b : Fin 4) (h : Fin 8) (n : Fin 2048) (e : Fin 64) :
    val_main_v5 (F := Ideal) x (ix4 b h n e) = x (ix3 b n (hcol h e)) := by
  rw [val_main_v5_apply, val_main_v4_apply]
  refine congrArg x (funext fun a => Fin.ext ?_)
  have hb := b.isLt; have hh := h.isLt; have hn := n.isLt; have he := e.isLt
  match a with
  | ⟨0, _⟩ => show (((b.val * 2048 + n.val) * 8 + h.val) * 64 + e.val) / 1048576 = b.val; omega
  | ⟨1, _⟩ => show (((b.val * 2048 + n.val) * 8 + h.val) * 64 + e.val) / 512 % 2048 = n.val; omega
  | ⟨2, _⟩ => show (((b.val * 2048 + n.val) * 8 + h.val) * 64 + e.val) % 512 = h.val * 64 + e.val; omega

/-- The first product, scaled: the score of query row `n` against key row `j`. -/
theorem scores_apply (x0 x1 : (⟨S4x2048x512, .f32⟩ : BufTy).Contents (Elt Ideal)) (b : Fin 4) (h : Fin 8) (n j : Fin 2048) :
    val_main_v8 (F := Ideal) x0 x1 (ix4 b h n j) = score x0 x1 b h n j := by
  rw [val_main_v8_apply, val_main_v7_apply, val_main_cst_apply, val_main_v6_apply]
  have el : ∀ k : Fin 64, lidx_main_v6 (ix4 b h n j) k = ix4 b h n k := fun k => funext fun a => by
    match a with | ⟨0, _⟩ => rfl | ⟨1, _⟩ => rfl | ⟨2, _⟩ => rfl | ⟨3, _⟩ => rfl
  have er : ∀ k : Fin 64, ridx_main_v6 (ix4 b h n j) k = ix4 b h j k := fun k => funext fun a => by
    match a with | ⟨0, _⟩ => rfl | ⟨1, _⟩ => rfl | ⟨2, _⟩ => rfl | ⟨3, _⟩ => rfl
  simp only [el, er, split0_apply, split1_apply, Ideal.mulf_def, Ideal.ofBits_def]
  rfl

/-- The word of −∞ is the bottom of the extended reals. -/
theorem ofBits_neg_inf_f32 : Ideal.ofBits .f32 0xFF800000#32 = (⊥ : EReal) := by simp [Ideal.ofBits, Ideal.ieee]

/-- The reduction with a maximum body along the key axis: the maximum of the row of scores, from −∞. -/
theorem rowmax0_apply (x0 x1 : (⟨S4x2048x512, .f32⟩ : BufTy).Contents (Elt Ideal)) (b : Fin 4) (h : Fin 8) (n : Fin 2048) :
    val_main_v9 (F := Ideal) x0 x1 (ix3 b h n) = maxOf (fun j => score x0 x1 b h n j) := by
  have H : S4x8x2048x2048.Reduces [3] S4x8x2048 := by decide
  unfold val_main_v9
  rw [Host.reduce_eq_fold_single (FloatOps.maximumf (F := Ideal) (φ := .f32)) _ _ reducesTo_S4x8x2048x2048_S4x8x2048_d3 H h_S_]
  have hl : ∀ k : Fin 2048, H.lift (ix3 b h n) k = ix4 b h n k := fun k => funext fun a => Fin.ext (by
    match a with | ⟨0, _⟩ => rfl | ⟨1, _⟩ => rfl | ⟨2, _⟩ => rfl | ⟨3, _⟩ => rfl)
  have hf : (val_main_v8 (F := Ideal) x0 x1 ∘ H.lift (ix3 b h n)) = fun j : Fin 2048 => score x0 x1 b h n j :=
    funext fun k : Fin 2048 => (congrArg (val_main_v8 (F := Ideal) x0 x1) (hl k)).trans (scores_apply x0 x1 b h n k)
  rw [hf, val_main_cst_0_apply, Ideal.ofBits_def, ofBits_neg_inf_f32]
  rfl

/-- The maximum with the splat of −∞ changes nothing. -/
theorem rowmax_apply (x0 x1 : (⟨S4x2048x512, .f32⟩ : BufTy).Contents (Elt Ideal)) (b : Fin 4) (h : Fin 8) (n : Fin 2048) :
    val_main_v11 (F := Ideal) x0 x1 (ix3 b h n) = maxOf (fun j => score x0 x1 b h n j) := by
  rw [val_main_v11_apply, val_main_v10_apply, val_main_cst_1_apply, rowmax0_apply, Ideal.maximumf_def, Ideal.ofBits_def,
    ofBits_neg_inf_f32]
  exact max_eq_right bot_le

/-- The row maximum broadcast back along the key axis. -/
theorem rowmaxB_apply (x0 x1 : (⟨S4x2048x512, .f32⟩ : BufTy).Contents (Elt Ideal)) (b : Fin 4) (h : Fin 8) (n j : Fin 2048) :
    val_main_v13 (F := Ideal) x0 x1 (ix4 b h n j) = maxOf (fun j' => score x0 x1 b h n j') := by
  rw [val_main_v13_apply, val_main_v12_apply]
  exact (congrArg (val_main_v11 (F := Ideal) x0 x1) (funext fun a => by
    match a with | ⟨0, _⟩ => rfl | ⟨1, _⟩ => rfl | ⟨2, _⟩ => rfl)).trans (rowmax_apply x0 x1 b h n)

/-- The exponential of the score less the row maximum. -/
theorem expo_apply (x0 x1 : (⟨S4x2048x512, .f32⟩ : BufTy).Contents (Elt Ideal)) (b : Fin 4) (h : Fin 8) (n j : Fin 2048) :
    val_main_v15 (F := Ideal) x0 x1 (ix4 b h n j)
      = Ideal.exp (score x0 x1 b h n j - maxOf (fun j' => score x0 x1 b h n j')) := by
  rw [val_main_v15_apply, val_main_v14_apply, scores_apply, rowmaxB_apply, Ideal.subf_def, Ideal.hostUnary_exp_def]

/-- The sum of the row of exponentials, from the zero word. -/
theorem rowsum_apply (x0 x1 : (⟨S4x2048x512, .f32⟩ : BufTy).Contents (Elt Ideal)) (b : Fin 4) (h : Fin 8) (n : Fin 2048) :
    val_main_v16 (F := Ideal) x0 x1 (ix3 b h n)
      = ∑ j : Fin 2048, Ideal.exp (score x0 x1 b h n j - maxOf (fun j' => score x0 x1 b h n j')) := by
  rw [val_main_v16_apply, val_main_cst_2_apply, Ideal.ofBits_def, Ideal.ofBits_zero_f32, zero_add]
  refine Finset.sum_congr rfl fun k _ => ?_
  exact (congrArg (val_main_v15 (F := Ideal) x0 x1) (funext fun a => by
    match a with | ⟨0, _⟩ => rfl | ⟨1, _⟩ => rfl | ⟨2, _⟩ => rfl | ⟨3, _⟩ => rfl)).trans (expo_apply x0 x1 b h n k)

/-- The row sum broadcast back along the key axis. -/
theorem rowsumB_apply (x0 x1 : (⟨S4x2048x512, .f32⟩ : BufTy).Contents (Elt Ideal)) (b : Fin 4) (h : Fin 8) (n j : Fin 2048) :
    val_main_v18 (F := Ideal) x0 x1 (ix4 b h n j)
      = ∑ j' : Fin 2048, Ideal.exp (score x0 x1 b h n j' - maxOf (fun j'' => score x0 x1 b h n j'')) := by
  rw [val_main_v18_apply, val_main_v17_apply]
  exact (congrArg (val_main_v16 (F := Ideal) x0 x1) (funext fun a => by
    match a with | ⟨0, _⟩ => rfl | ⟨1, _⟩ => rfl | ⟨2, _⟩ => rfl)).trans (rowsum_apply x0 x1 b h n)

/-- The normalised weight of key row `j`. -/
theorem weight_apply (x0 x1 : (⟨S4x2048x512, .f32⟩ : BufTy).Contents (Elt Ideal)) (b : Fin 4) (h : Fin 8) (n j : Fin 2048) :
    val_main_v19 (F := Ideal) x0 x1 (ix4 b h n j)
      = Ideal.div (Ideal.exp (score x0 x1 b h n j - maxOf (fun j' => score x0 x1 b h n j')))
          (∑ j' : Fin 2048, Ideal.exp (score x0 x1 b h n j' - maxOf (fun j'' => score x0 x1 b h n j''))) := by
  rw [val_main_v19_apply, expo_apply, rowsumB_apply, Ideal.hostDivf_def]

/-- The second product: the weights against lane `d` of head `h` of the values. -/
theorem out_apply (x0 x1 x2 : (⟨S4x2048x512, .f32⟩ : BufTy).Contents (Elt Ideal)) (b : Fin 4) (h : Fin 8) (n : Fin 2048) (d : Fin 64) :
    val_main_v20 (F := Ideal) x0 x1 x2 (ix4 b h n d)
      = softmaxRow (fun j => score x0 x1 b h n j) (fun j => x2 (ix3 b j (hcol h d))) := by
  rw [val_main_v20_apply]
  have el : ∀ k : Fin 2048, lidx_main_v20 (ix4 b h n d) k = ix4 b h n k := fun k => funext fun a => by
    match a with | ⟨0, _⟩ => rfl | ⟨1, _⟩ => rfl | ⟨2, _⟩ => rfl | ⟨3, _⟩ => rfl
  have er : ∀ k : Fin 2048, ridx_main_v20 (ix4 b h n d) k = ix4 b h k d := fun k => funext fun a => by
    match a with | ⟨0, _⟩ => rfl | ⟨1, _⟩ => rfl | ⟨2, _⟩ => rfl | ⟨3, _⟩ => rfl
  simp only [el, er, weight_apply, split2_apply]
  rfl

/-- The head merge reads the product at head `c / 64`, lane `c % 64`. -/
theorem merge_apply (x0 x1 x2 : (⟨S4x2048x512, .f32⟩ : BufTy).Contents (Elt Ideal)) (b : Fin 4) (n : Fin 2048) (c : Fin 512) :
    val_main_v22 (F := Ideal) x0 x1 x2 (ix3 b n c) = val_main_v20 (F := Ideal) x0 x1 x2 (ix4 b (headOf c) n (laneOf c)) := by
  rw [val_main_v22_apply, val_main_v21_apply]
  refine congrArg (val_main_v20 (F := Ideal) x0 x1 x2) (funext fun a => Fin.ext ?_)
  have hb := b.isLt; have hn := n.isLt; have hc := c.isLt
  match a with
  | ⟨0, _⟩ => show ((b.val * 2048 + n.val) * 512 + c.val) / 1048576 = b.val; omega
  | ⟨1, _⟩ => show ((b.val * 2048 + n.val) * 512 + c.val) / 64 % 8 = c.val / 64; omega
  | ⟨2, _⟩ => show ((b.val * 2048 + n.val) * 512 + c.val) / 512 % 2048 = n.val; omega
  | ⟨3, _⟩ => show ((b.val * 2048 + n.val) * 512 + c.val) % 64 = c.val % 64; omega

theorem ref_eq_attn (x0 x1 x2 : (⟨S4x2048x512, .f32⟩ : BufTy).Contents (Elt Ideal)) :
    Cert.ReferenceIdeal.Read.val_main_v22 (F := Ideal) x0 x1 x2 = attn x0 x1 x2 := by
  funext i
  obtain ⟨b, n, c, rfl⟩ : ∃ (b : Fin 4) (n : Fin 2048) (c : Fin 512), i = ix3 b n c := ⟨i 0, i 1, i 2, eq_ix3 i⟩
  rw [merge_apply, out_apply, hcol_headOf_laneOf]
  rfl

end Cert.AttnRef

end
-- ==== Proof.FiniteInputs.lean ====
import proofs.«151038_j7224134991903_2_alg».proof.Pre_finite_inputs
import proofs.«151038_j7224134991903_2_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.AttnFinite

open Cert.Pre_finite_inputs
open Idealize.ShloMosaic Idealize.ShloMosaic.ValueIdx

variable [Cert.Pre_finite_inputs.Facts]

/-- The rank-0 shape has exactly one index. -/
instance subsingleton_S_Idx : Subsingleton S_.Idx := ⟨fun a b => funext fun d => d.elim0⟩

omit [Cert.Pre_finite_inputs.Facts] in
/-- The f32 word 0x7F800000 (sign 0, exponent all ones, fraction 0) denotes +∞. -/
theorem ofBits_inf : Ideal.ofBits .f32 0x7F800000#32 = (⊤ : EReal) := by
  simp [Ideal.ofBits, Ideal.ieee]

omit [Cert.Pre_finite_inputs.Facts] in
/-- An extended real whose absolute value max x (-x) is below +∞ is a real number:
    at ⊥ the maximum is max ⊥ ⊤ = ⊤, at ⊤ it is ⊤, and neither is below ⊤. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One array: if the AND over all entries of the bits |a i| < +∞ is 1, every entry of a is a real number. -/
theorem real_of_all (a : FVec Ideal S4x2048x512 .f32)
    (h : Host.reduce IntOp.andi
          (cmpf .olt (Host.absf a)
            (broadcastInDim S4x2048x512 ![] Facts.bcast_S_S4x2048x512 (constant S_ .f32 0x7F800000#32)))
          (constantI S_ 1 1#1) Facts.reducesTo_S4x2048x512_S_d0_1_2 Facts.h_S_ ValueIdx.ix0 = 1#1) :
    ∀ i, ∃ r : ℝ, a i = (r : EReal) := by
  intro i
  -- the bit at i is 1
  have hi := Host.reduce_andi_all _ _ _ _ _ h i
  -- read the bit: it is the comparison max (a i) (-(a i)) < ⊤
  have hc : Ideal.cmp .olt (max (a i) (-(a i))) (⊤ : EReal) = 1#1 := by
    rw [← ofBits_inf]; exact hi
  refine real_of_abs_lt_top (a i) ?_
  by_contra hn
  simp only [Ideal.cmp, hn, decide_false] at hc
  exact absurd hc (by decide)

theorem real_of_pre (a0 a1 a2 : FVec Ideal S4x2048x512 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨real_of_all a0 h0', real_of_all a1 h1, real_of_all a2 h2⟩

end Cert.AttnFinite

end
-- ==== Proof.Claims.lean ====
/-
  The five conjuncts.

  The three frames are the generated ones (the reference's is its generated run with the result dropped); the
  idealization rewrote no operation, so `preserves` is `True`. For `algebraic`: the precondition makes every entry of
  Q, K, V real; then the kernel's result array is the attention function of its arguments (the running maximum, sum
  of exponentials and weighted sums carried over the four key tiles, divided at the last one), and the reference's
  result is the same function for any extended reals (softmax of the scaled scores, then the product with V); the
  arguments of the two runs agree.
-/
import proofs.«151038_j7224134991903_2_alg».proof.Defs
import proofs.«151038_j7224134991903_2_alg».proof.Proof.Gen.Kernel
import proofs.«151038_j7224134991903_2_alg».proof.Proof.Gen.Kernel.Frame
import proofs.«151038_j7224134991903_2_alg».proof.Proof.Gen.KernelIdeal
import proofs.«151038_j7224134991903_2_alg».proof.Proof.Gen.KernelIdeal.Frame
import proofs.«151038_j7224134991903_2_alg».proof.Proof.Gen.KernelIdeal.Value
import proofs.«151038_j7224134991903_2_alg».proof.Proof.Gen.ReferenceIdeal
import proofs.«151038_j7224134991903_2_alg».proof.Proof.Gen.ReferenceIdeal.Run
import proofs.«151038_j7224134991903_2_alg».proof.Proof.Gen.ReferenceIdeal.Read
import proofs.«151038_j7224134991903_2_alg».proof.Proof.Gen.Pre_finite_inputs
import proofs.«151038_j7224134991903_2_alg».proof.Proof.KernelArray
import proofs.«151038_j7224134991903_2_alg».proof.Proof.RefAttn
import proofs.«151038_j7224134991903_2_alg».proof.Proof.FiniteInputs

noncomputable section

open Idealize.ShloMosaic Idealize.ShloMosaic.TcCoe Idealize.SL.Sem

namespace Cert.Proof.AttnClaims

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition every entry of the three argument arrays is a real number. -/
theorem real_args (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, Cert.AttnKernel.argQ m c i = (r : EReal)) ∧ (∀ i, ∃ r : ℝ, Cert.AttnKernel.argK m c i = (r : EReal))
      ∧ (∀ i, ∃ r : ℝ, Cert.AttnKernel.argV m c i = (r : EReal)) :=
  Cert.AttnFinite.real_of_pre _ _ _ (hpre c)

theorem algebraic : Cert.algebraic_KernelIdeal_ReferenceIdeal := by
  intro m ρ m' ρ' hpre hagree
  refine ⟨fun c => Cert.AttnSpec.attn (Cert.AttnKernel.argQ m c) (Cert.AttnKernel.argK m c) (Cert.AttnKernel.argV m c),
    Cert.AttnKernel.run m ρ (real_args m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.AttnRef.ref_eq_attn, (hagree c).1, (hagree c).2.1, (hagree c).2.2]

end Cert.Proof.AttnClaims

end
-- ==== Proof.lean ====
/-
  Multi-head attention (batch 4, sequence 2048, eight heads of width 64), a kernel that accumulates the softmax
  tile by tile over the keys against a reference that forms the softmax and then multiplies by V: the claim's proof.

  Both programs compute, for batch b, query row n, head h and lane d,
      ∑ j, softmax_j((∑ e, Q(b,n,64h+e)·K(b,j,64h+e))·2⁻³) · V(b,j,64h+d).
  The reference normalises the weights first (exp (s j − M) / ∑ j' exp (s j' − M), M the row maximum) and then sums
  against V. The kernel walks the 2048 keys in four tiles of 512, carrying the running maximum m, the running sum l
  of exp (s − m) and the running sums a of exp (s − m)·V, each rescaled by exp (m_old − m_new) whenever the maximum
  moves, and divides a by l after the last tile. Over the reals these agree: exp (m_old − m_new)·exp (s − m_old)
  = exp (s − m_new) makes the carried sums the sums over all keys seen so far taken against the current maximum, and
  (∑ j, w j·v j) / L = ∑ j, (w j / L)·v j. At the extended reals the two laws need the entries to be finite, which
  is what the precondition gives; changes of float format are the identity there, so the kernel's bf16 operands play
  no part.

  Modules: AttnSpec (the function), OnlineSoftmax (the two arrangements agree for real scores and values),
  KernelPieces / PayLayout / PayMatmul / PayStats (what each control case of the kernel body leaves, read at an index),
  KernelStep, KernelBlocks, KernelInvariant, KernelArray (the carried statistics after every grid point; the blocks
  written back tile the result array), RefAttn (the reference is the function), FiniteInputs (the precondition makes
  the entries real), Claims (the five conjuncts).
-/
import proofs.«151038_j7224134991903_2_alg».proof.Defs
import proofs.«151038_j7224134991903_2_alg».proof.Proof.Gen.Kernel
import proofs.«151038_j7224134991903_2_alg».proof.Proof.Gen.Kernel.Skeleton
import proofs.«151038_j7224134991903_2_alg».proof.Proof.Gen.Kernel.Launch
import proofs.«151038_j7224134991903_2_alg».proof.Proof.Gen.Kernel.Points
import proofs.«151038_j7224134991903_2_alg».proof.Proof.Gen.Kernel.Frame
import proofs.«151038_j7224134991903_2_alg».proof.Proof.Gen.KernelIdeal
import proofs.«151038_j7224134991903_2_alg».proof.Proof.Gen.KernelIdeal.Skeleton
import proofs.«151038_j7224134991903_2_alg».proof.Proof.Gen.KernelIdeal.Launch
import proofs.«151038_j7224134991903_2_alg».proof.Proof.Gen.KernelIdeal.Points
import proofs.«151038_j7224134991903_2_alg».proof.Proof.Gen.KernelIdeal.Frame
import proofs.«151038_j7224134991903_2_alg».proof.Proof.Gen.ReferenceIdeal
import proofs.«151038_j7224134991903_2_alg».proof.Proof.Gen.Pre_finite_inputs
import proofs.«151038_j7224134991903_2_alg».proof.Proof.Gen.KernelIdeal.Value
import proofs.«151038_j7224134991903_2_alg».proof.Proof.Gen.ReferenceIdeal.Run
import proofs.«151038_j7224134991903_2_alg».proof.Proof.Gen.ReferenceIdeal.Read
import proofs.«151038_j7224134991903_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  AttnClaims.frame_p, AttnClaims.frame_pi, AttnClaims.frame_ri, AttnClaims.preserves, AttnClaims.algebraic⟩

end Cert.Proof

end
